-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x14x14 : Shape := ⟨4, ![16, 64, 14, 14]⟩
abbrev S64x64x3x3 : Shape := ⟨4, ![64, 64, 3, 3]⟩
abbrev S_ : Shape := ⟨0, ![]⟩

class Facts : Prop where
  bcast_S_S16x64x14x14 : S_.BroadcastsInDim S16x64x14x14 (![] : Fin 0 → Fin S16x64x14x14.rank)
  reducesTo_S16x64x14x14_S_d0_1_2_3 : S16x64x14x14.ReducesTo [0, 1, 2, 3] S_
  h_S_ : 0 < S_.numel
  bcast_S_S64x64x3x3 : S_.BroadcastsInDim S64x64x3x3 (![] : Fin 0 → Fin S64x64x3x3.rank)
  reducesTo_S64x64x3x3_S_d0_1_2_3 : S64x64x3x3.ReducesTo [0, 1, 2, 3] S_

variable [Facts]

def fn {F : FTy → Type} [FloatOps F] (main_arg0 : FVec F S16x64x14x14 .f32) (main_arg1 : FVec F S64x64x3x3 .f32) : IVec S_ 1 :=
  let main_v0 : FVec F S16x64x14x14 .f32 := Host.absf main_arg0
  let main_cst : FVec F S_ .f32 := constant S_ .f32 0x7F800000#32
  let main_v1 : FVec F S16x64x14x14 .f32 := broadcastInDim S16x64x14x14 ![] bcast_S_S16x64x14x14 main_cst
  let main_v2 : IVec S16x64x14x14 1 := cmpf .olt main_v0 main_v1
  let main_c : IVec S_ 1 := constantI S_ 1 1#1
  let main_v3 : IVec S_ 1 := (fun x v => Host.reduce IntOp.andi x v reducesTo_S16x64x14x14_S_d0_1_2_3 h_S_) main_v2 main_c
  let main_v4 : FVec F S64x64x3x3 .f32 := Host.absf main_arg1
  let main_cst_0 : FVec F S_ .f32 := constant S_ .f32 0x7F800000#32
  let main_v5 : FVec F S64x64x3x3 .f32 := broadcastInDim S64x64x3x3 ![] bcast_S_S64x64x3x3 main_cst_0
  let main_v6 : IVec S64x64x3x3 1 := cmpf .olt main_v4 main_v5
  let main_c_1 : IVec S_ 1 := constantI S_ 1 1#1
  let main_v7 : IVec S_ 1 := (fun x v => Host.reduce IntOp.andi x v reducesTo_S64x64x3x3_S_d0_1_2_3 h_S_) main_v6 main_c_1
  let main_v8 : IVec S_ 1 := andi main_v3 main_v7
  main_v8
-- ==== Kernel.lean ====
abbrev S16x64x14x14 : Shape := ⟨4, ![16, 64, 14, 14]⟩
abbrev S64x64x3x3 : Shape := ⟨4, ![64, 64, 3, 3]⟩
abbrev S_ : Shape := ⟨0, ![]⟩
abbrev S16x64x16x16 : Shape := ⟨4, ![16, 64, 16, 16]⟩
abbrev S16x64x1x14x14 : Shape := ⟨5, ![16, 64, 1, 14, 14]⟩
abbrev S16x64x9x14x14 : Shape := ⟨5, ![16, 64, 9, 14, 14]⟩
abbrev S16x576x196 : Shape := ⟨3, ![16, 576, 196]⟩
abbrev S64x576 : Shape := ⟨2, ![64, 576]⟩
abbrev S576x64 : Shape := ⟨2, ![576, 64]⟩
abbrev S576x16x196 : Shape := ⟨3, ![576, 16, 196]⟩
abbrev S576x3136 : Shape := ⟨2, ![576, 3136]⟩
abbrev S576x3200 : Shape := ⟨2, ![576, 3200]⟩
abbrev S64x3200 : Shape := ⟨2, ![64, 3200]⟩
abbrev S576x640 : Shape := ⟨2, ![576, 640]⟩
abbrev S64x640 : Shape := ⟨2, ![64, 640]⟩
abbrev S32x640 : Shape := ⟨2, ![32, 640]⟩
abbrev S32x64 : Shape := ⟨2, ![32, 64]⟩
abbrev S32x64x1 : Shape := ⟨3, ![32, 64, 1]⟩
abbrev S32x1x640 : Shape := ⟨3, ![32, 1, 640]⟩
abbrev S32x64x640 : Shape := ⟨3, ![32, 64, 640]⟩
abbrev S64x3136 : Shape := ⟨2, ![64, 3136]⟩
abbrev S64x16x196 : Shape := ⟨3, ![64, 16, 196]⟩
abbrev S16x64x196 : Shape := ⟨3, ![16, 64, 196]⟩

abbrev nBuf : Space → Nat
  | .hbm => 37
  | .vmem => 6
  | .smem => 0
  | _ => 0

abbrev bufTy : (tb : Table) → Fin (tcTables nBuf tb) → BufTy
  | .hbm, ⟨0, _⟩ => ⟨S16x64x14x14, .f32⟩
  | .hbm, ⟨1, _⟩ => ⟨S64x64x3x3, .f32⟩
  | .hbm, ⟨2, _⟩ => ⟨S_, .i32⟩
  | .hbm, ⟨3, _⟩ => ⟨S_, .f32⟩
  | .hbm, ⟨4, _⟩ => ⟨S16x64x16x16, .f32⟩
  | .hbm, ⟨5, _⟩ => ⟨S16x64x14x14, .f32⟩
  | .hbm, ⟨6, _⟩ => ⟨S16x64x14x14, .f32⟩
  | .hbm, ⟨7, _⟩ => ⟨S16x64x14x14, .f32⟩
  | .hbm, ⟨8, _⟩ => ⟨S16x64x14x14, .f32⟩
  | .hbm, ⟨9, _⟩ => ⟨S16x64x14x14, .f32⟩
  | .hbm, ⟨10, _⟩ => ⟨S16x64x14x14, .f32⟩
  | .hbm, ⟨11, _⟩ => ⟨S16x64x14x14, .f32⟩
  | .hbm, ⟨12, _⟩ => ⟨S16x64x14x14, .f32⟩
  | .hbm, ⟨13, _⟩ => ⟨S16x64x14x14, .f32⟩
  | .hbm, ⟨14, _⟩ => ⟨S16x64x1x14x14, .f32⟩
  | .hbm, ⟨15, _⟩ => ⟨S16x64x1x14x14, .f32⟩
  | .hbm, ⟨16, _⟩ => ⟨S16x64x1x14x14, .f32⟩
  | .hbm, ⟨17, _⟩ => ⟨S16x64x1x14x14, .f32⟩
  | .hbm, ⟨18, _⟩ => ⟨S16x64x1x14x14, .f32⟩
  | .hbm, ⟨19, _⟩ => ⟨S16x64x1x14x14, .f32⟩
  | .hbm, ⟨20, _⟩ => ⟨S16x64x1x14x14, .f32⟩
  | .hbm, ⟨21, _⟩ => ⟨S16x64x1x14x14, .f32⟩
  | .hbm, ⟨22, _⟩ => ⟨S16x64x1x14x14, .f32⟩
  | .hbm, ⟨23, _⟩ => ⟨S16x64x9x14x14, .f32⟩
  | .hbm, ⟨24, _⟩ => ⟨S16x576x196, .f32⟩
  | .hbm, ⟨25, _⟩ => ⟨S64x576, .f32⟩
  | .hbm, ⟨26, _⟩ => ⟨S576x64, .f32⟩
  | .hbm, ⟨27, _⟩ => ⟨S576x16x196, .f32⟩
  | .hbm, ⟨28, _⟩ => ⟨S576x3136, .f32⟩
  | .hbm, ⟨29, _⟩ => ⟨S_, .i32⟩
  | .hbm, ⟨30, _⟩ => ⟨S_, .f32⟩
  | .hbm, ⟨31, _⟩ => ⟨S576x3200, .f32⟩
  | .hbm, ⟨32, _⟩ => ⟨S64x3200, .f32⟩
  | .hbm, ⟨33, _⟩ => ⟨S64x3136, .f32⟩
  | .hbm, ⟨34, _⟩ => ⟨S64x16x196, .f32⟩
  | .hbm, ⟨35, _⟩ => ⟨S16x64x196, .f32⟩
  | .hbm, ⟨36, _⟩ => ⟨S16x64x14x14, .f32⟩
  | .local _ .vmem, ⟨0, _⟩ => ⟨S576x640, .f32⟩
  | .local _ .vmem, ⟨1, _⟩ => ⟨S576x640, .f32⟩
  | .local _ .vmem, ⟨2, _⟩ => ⟨S576x64, .f32⟩
  | .local _ .vmem, ⟨3, _⟩ => ⟨S64x640, .f32⟩
  | .local _ .vmem, ⟨4, _⟩ => ⟨S64x640, .f32⟩
  | .local _ .vmem, ⟨5, _⟩ => ⟨S64x640, .f32⟩
  | _, _ => ⟨S16x64x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c_0 : Ref sig .tc := ⟨.hbm, 29, rfl⟩
abbrev main_call1_v0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

@[reducible] def k0_t1_loop : Scf.Loop 32 :=
  let c0_i32 : BitVec 32 := 0#32
  let c18_i32 : BitVec 32 := 18#32
  let v4 : BitVec 32 := Scalar.addi c0_i32 c18_i32
  let c1_i32 : BitVec 32 := 1#32
  ⟨c0_i32, v4, c1_i32⟩
def k0_mult1 (k0_t1 : Fin k0_t1_loop.trips) : BitVec 32 :=
  let c0_i32_8 : BitVec 32 := 0#32
  let c0_i32 : BitVec 32 := 0#32
  let c1_i32 : BitVec 32 := 1#32
  let arg5 : BitVec 32 := Scf.iv c0_i32 c1_i32 k0_t1
  let c1_i32_7 : BitVec 32 := 1#32
  let v9 : BitVec 32 := Scalar.muli arg5 c1_i32_7
  let v10 : BitVec 32 := Scalar.addi c0_i32_8 v9
  let c32_i32 : BitVec 32 := 32#32
  let v11 : BitVec 32 := Scalar.muli v10 c32_i32
  v11
def k0_off1 (k0_t1 : Fin k0_t1_loop.trips) : Fin 2 → Nat :=
  let c0_i32_8 : BitVec 32 := 0#32
  let c0_i32 : BitVec 32 := 0#32
  let c1_i32 : BitVec 32 := 1#32
  let arg5 : BitVec 32 := Scf.iv c0_i32 c1_i32 k0_t1
  let c1_i32_7 : BitVec 32 := 1#32
  let v9 : BitVec 32 := Scalar.muli arg5 c1_i32_7
  let v10 : BitVec 32 := Scalar.addi c0_i32_8 v9
  let c32_i32 : BitVec 32 := 32#32
  let v11 : BitVec 32 := Scalar.muli v10 c32_i32
  let v12 : BitVec 32 := v11
  let v13 : Index := Scalar.indexCast v12
  let c0_9 : Index := 0#32
  ![v13.toNat, 0]
def k0_off2 (k0_t1 : Fin k0_t1_loop.trips) : Fin 2 → Nat :=
  let c0_i32_8 : BitVec 32 := 0#32
  let c0_i32 : BitVec 32 := 0#32
  let c1_i32 : BitVec 32 := 1#32
  let arg5 : BitVec 32 := Scf.iv c0_i32 c1_i32 k0_t1
  let c1_i32_7 : BitVec 32 := 1#32
  let v9 : BitVec 32 := Scalar.muli arg5 c1_i32_7
  let v10 : BitVec 32 := Scalar.addi c0_i32_8 v9
  let c32_i32 : BitVec 32 := 32#32
  let v11 : BitVec 32 := Scalar.muli v10 c32_i32
  let v12 : BitVec 32 := v11
  let v16 : Index := Scalar.indexCast v12
  let c0_10 : Index := 0#32
  ![v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S576x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S16x64x14x14_S16x64x16x16_000_000_110_110 : S16x64x14x14.Pads (![0, 0, 1, 1] : Fin 4 → Nat) ![0, 0, 1, 1] ![0, 0, 0, 0] S16x64x16x16
  h_S_ : 0 < S_.numel
  slices_S16x64x16x16_S16x64x14x14_0_0_0_0 : S16x64x16x16.Slices ![0, 0, 0, 0] S16x64x14x14
  slices_S16x64x16x16_S16x64x14x14_0_0_0_1 : S16x64x16x16.Slices ![0, 0, 0, 1] S16x64x14x14
  slices_S16x64x16x16_S16x64x14x14_0_0_0_2 : S16x64x16x16.Slices ![0, 0, 0, 2] S16x64x14x14
  slices_S16x64x16x16_S16x64x14x14_0_0_1_0 : S16x64x16x16.Slices ![0, 0, 1, 0] S16x64x14x14
  slices_S16x64x16x16_S16x64x14x14_0_0_1_1 : S16x64x16x16.Slices ![0, 0, 1, 1] S16x64x14x14
  slices_S16x64x16x16_S16x64x14x14_0_0_1_2 : S16x64x16x16.Slices ![0, 0, 1, 2] S16x64x14x14
  slices_S16x64x16x16_S16x64x14x14_0_0_2_0 : S16x64x16x16.Slices ![0, 0, 2, 0] S16x64x14x14
  slices_S16x64x16x16_S16x64x14x14_0_0_2_1 : S16x64x16x16.Slices ![0, 0, 2, 1] S16x64x14x14
  slices_S16x64x16x16_S16x64x14x14_0_0_2_2 : S16x64x16x16.Slices ![0, 0, 2, 2] S16x64x14x14
  bcast_S16x64x14x14_S16x64x1x14x14_0_1_3_4 : S16x64x14x14.BroadcastsInDim S16x64x1x14x14 (![0, 1, 3, 4] : Fin 4 → Fin S16x64x1x14x14.rank)
  concatenates_S16x64x1x14x14_S16x64x1x14x14_S16x64x1x14x14_S16x64x1x14x14_S16x64x1x14x14_S16x64x1x14x14_S16x64x1x14x14_S16x64x1x14x14_S16x64x1x14x14_S16x64x9x14x14_d2 : Shape.Concatenates [S16x64x1x14x14, S16x64x1x14x14, S16x64x1x14x14, S16x64x1x14x14, S16x64x1x14x14, S16x64x1x14x14, S16x64x1x14x14, S16x64x1x14x14, S16x64x1x14x14] S16x64x9x14x14 2
  shapeCasts_S16x64x9x14x14_S16x576x196 : S16x64x9x14x14.ShapeCasts S16x576x196
  shapeCasts_S64x64x3x3_S64x576 : S64x64x3x3.ShapeCasts S64x576
  transposes_S64x576_S576x64_1_0 : S64x576.Transposes [1, 0] S576x64
  transposes_S16x576x196_S576x16x196_1_0_2 : S16x576x196.Transposes [1, 0, 2] S576x16x196
  shapeCasts_S576x16x196_S576x3136 : S576x16x196.ShapeCasts S576x3136
  pads_S576x3136_S576x3200_000_0640 : S576x3136.Pads (![0, 0] : Fin 2 → Nat) ![0, 64] ![0, 0] S576x3200
  inb_S64x640_S64x640_0_0 : ∀ a, (![0, 0] : Fin 2 → Nat) a + S64x640.size a ≤ S64x640.size a
  h_S64x640 : 0 < S64x640.numel
  shapeCasts_S64x640_S64x640 : S64x640.ShapeCasts S64x640
  h_S32x640 : 0 < S32x640.numel
  shapeCasts_S32x640_S32x640 : S32x640.ShapeCasts S32x640
  h_S32x64 : 0 < S32x64.numel
  shapeCasts_S32x64_S32x64 : S32x64.ShapeCasts S32x64
  shapeCasts_S32x64_S32x64x1 : S32x64.ShapeCasts S32x64x1
  shapeCasts_S32x640_S32x1x640 : S32x640.ShapeCasts S32x1x640
  broadcasts_S32x64x1_S32x64x640 : S32x64x1.Broadcasts S32x64x640
  broadcasts_S32x1x640_S32x64x640 : S32x1x640.Broadcasts S32x64x640
  reduces_S32x64x640_S64x640 : S32x64x640.Reduces [0] S64x640
  slices_S64x3200_S64x3136_0_0 : S64x3200.Slices ![0, 0] S64x3136
  shapeCasts_S64x3136_S64x16x196 : S64x3136.ShapeCasts S64x16x196
  transposes_S64x16x196_S16x64x196_1_0_2 : S64x16x196.Transposes [1, 0, 2] S16x64x196
  shapeCasts_S16x64x196_S16x64x14x14 : S16x64x196.ShapeCasts S16x64x14x14
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S32x640.size a ≤ S576x640.size a
  k0_off2_inb : ∀ k0_t1 : Fin k0_t1_loop.trips, ∀ a, (k0_off2 k0_t1) a + S32x64.size a ≤ S576x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S576x640.size a ≤ S576x3200.size a
  hwx0_0 : ∀ i : grid0.Coords, EltTy.bits .f32 = 32 ∨ (Rect.block (s := S576x3200) S576x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x64.size a ≤ S576x64.size a
  hwx0_1 : ∀ i : grid0.Coords, EltTy.bits .f32 = 32 ∨ (Rect.block (s := S576x64) S576x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x640.size a ≤ S64x3200.size a
  hwx0_2 : ∀ i : grid0.Coords, EltTy.bits .f32 = 32 ∨ (Rect.block (s := S64x3200) S64x640.size (cc0_transform_2 i) (hinb0_2 i)).WholeWords (EltTy.packing .f32)

variable [Facts₀]

abbrev win0_0 : Pipeline.Window sig grid0 :=
  Pipeline.Window.ofSpec (Memref.whole main_v25) S576x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S576x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S64x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x14x14 : Shape := ⟨4, ![16, 64, 14, 14]⟩
abbrev S64x64x3x3 : Shape := ⟨4, ![64, 64, 3, 3]⟩
abbrev S_ : Shape := ⟨0, ![]⟩
abbrev S16x64x16x16 : Shape := ⟨4, ![16, 64, 16, 16]⟩
abbrev S16x64x1x14x14 : Shape := ⟨5, ![16, 64, 1, 14, 14]⟩
abbrev S16x64x9x14x14 : Shape := ⟨5, ![16, 64, 9, 14, 14]⟩
abbrev S16x576x196 : Shape := ⟨3, ![16, 576, 196]⟩
abbrev S64x576 : Shape := ⟨2, ![64, 576]⟩
abbrev S1x64x576x1 : Shape := ⟨4, ![1, 64, 576, 1]⟩
abbrev S16x1x576x196 : Shape := ⟨4, ![16, 1, 576, 196]⟩
abbrev S16x64x576x196 : Shape := ⟨4, ![16, 64, 576, 196]⟩
abbrev S16x64x196 : Shape := ⟨3, ![16, 64, 196]⟩

abbrev nBuf : Space → Nat
  | .hbm => 36
  | .vmem => 0
  | .smem => 0
  | _ => 0

abbrev bufTy : (tb : Table) → Fin (tcTables nBuf tb) → BufTy
  | .hbm, ⟨0, _⟩ => ⟨S16x64x14x14, .f32⟩
  | .hbm, ⟨1, _⟩ => ⟨S64x64x3x3, .f32⟩
  | .hbm, ⟨2, _⟩ => ⟨S_, .i32⟩
  | .hbm, ⟨3, _⟩ => ⟨S_, .f32⟩
  | .hbm, ⟨4, _⟩ => ⟨S16x64x16x16, .f32⟩
  | .hbm, ⟨5, _⟩ => ⟨S16x64x14x14, .f32⟩
  | .hbm, ⟨6, _⟩ => ⟨S16x64x14x14, .f32⟩
  | .hbm, ⟨7, _⟩ => ⟨S16x64x14x14, .f32⟩
  | .hbm, ⟨8, _⟩ => ⟨S16x64x14x14, .f32⟩
  | .hbm, ⟨9, _⟩ => ⟨S16x64x14x14, .f32⟩
  | .hbm, ⟨10, _⟩ => ⟨S16x64x14x14, .f32⟩
  | .hbm, ⟨11, _⟩ => ⟨S16x64x14x14, .f32⟩
  | .hbm, ⟨12, _⟩ => ⟨S16x64x14x14, .f32⟩
  | .hbm, ⟨13, _⟩ => ⟨S16x64x14x14, .f32⟩
  | .hbm, ⟨14, _⟩ => ⟨S16x64x1x14x14, .f32⟩
  | .hbm, ⟨15, _⟩ => ⟨S16x64x1x14x14, .f32⟩
  | .hbm, ⟨16, _⟩ => ⟨S16x64x1x14x14, .f32⟩
  | .hbm, ⟨17, _⟩ => ⟨S16x64x1x14x14, .f32⟩
  | .hbm, ⟨18, _⟩ => ⟨S16x64x1x14x14, .f32⟩
  | .hbm, ⟨19, _⟩ => ⟨S16x64x1x14x14, .f32⟩
  | .hbm, ⟨20, _⟩ => ⟨S16x64x1x14x14, .f32⟩
  | .hbm, ⟨21, _⟩ => ⟨S16x64x1x14x14, .f32⟩
  | .hbm, ⟨22, _⟩ => ⟨S16x64x1x14x14, .f32⟩
  | .hbm, ⟨23, _⟩ => ⟨S16x64x9x14x14, .f32⟩
  | .hbm, ⟨24, _⟩ => ⟨S16x576x196, .f32⟩
  | .hbm, ⟨25, _⟩ => ⟨S64x576, .f32⟩
  | .hbm, ⟨26, _⟩ => ⟨S1x64x576x1, .f32⟩
  | .hbm, ⟨27, _⟩ => ⟨S16x1x576x196, .f32⟩
  | .hbm, ⟨28, _⟩ => ⟨S16x64x576x196, .f32⟩
  | .hbm, ⟨29, _⟩ => ⟨S16x64x576x196, .f32⟩
  | .hbm, ⟨30, _⟩ => ⟨S16x64x576x196, .f32⟩
  | .hbm, ⟨31, _⟩ => ⟨S16x64x576x196, .f32⟩
  | .hbm, ⟨32, _⟩ => ⟨S_, .f32⟩
  | .hbm, ⟨33, _⟩ => ⟨S16x64x196, .f32⟩
  | .hbm, ⟨34, _⟩ => ⟨S16x64x196, .f32⟩
  | .hbm, ⟨35, _⟩ => ⟨S16x64x14x14, .f32⟩
  | _, _ => ⟨S16x64x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]

class Facts₀ : Prop where
  pads_S16x64x14x14_S16x64x16x16_000_000_110_110 : S16x64x14x14.Pads (![0, 0, 1, 1] : Fin 4 → Nat) ![0, 0, 1, 1] ![0, 0, 0, 0] S16x64x16x16
  h_S_ : 0 < S_.numel
  slices_S16x64x16x16_S16x64x14x14_0_0_0_0 : S16x64x16x16.Slices ![0, 0, 0, 0] S16x64x14x14
  slices_S16x64x16x16_S16x64x14x14_0_0_0_1 : S16x64x16x16.Slices ![0, 0, 0, 1] S16x64x14x14
  slices_S16x64x16x16_S16x64x14x14_0_0_0_2 : S16x64x16x16.Slices ![0, 0, 0, 2] S16x64x14x14
  slices_S16x64x16x16_S16x64x14x14_0_0_1_0 : S16x64x16x16.Slices ![0, 0, 1, 0] S16x64x14x14
  slices_S16x64x16x16_S16x64x14x14_0_0_1_1 : S16x64x16x16.Slices ![0, 0, 1, 1] S16x64x14x14
  slices_S16x64x16x16_S16x64x14x14_0_0_1_2 : S16x64x16x16.Slices ![0, 0, 1, 2] S16x64x14x14
  slices_S16x64x16x16_S16x64x14x14_0_0_2_0 : S16x64x16x16.Slices ![0, 0, 2, 0] S16x64x14x14
  slices_S16x64x16x16_S16x64x14x14_0_0_2_1 : S16x64x16x16.Slices ![0, 0, 2, 1] S16x64x14x14
  slices_S16x64x16x16_S16x64x14x14_0_0_2_2 : S16x64x16x16.Slices ![0, 0, 2, 2] S16x64x14x14
  bcast_S16x64x14x14_S16x64x1x14x14_0_1_3_4 : S16x64x14x14.BroadcastsInDim S16x64x1x14x14 (![0, 1, 3, 4] : Fin 4 → Fin S16x64x1x14x14.rank)
  concatenates_S16x64x1x14x14_S16x64x1x14x14_S16x64x1x14x14_S16x64x1x14x14_S16x64x1x14x14_S16x64x1x14x14_S16x64x1x14x14_S16x64x1x14x14_S16x64x1x14x14_S16x64x9x14x14_d2 : Shape.Concatenates [S16x64x1x14x14, S16x64x1x14x14, S16x64x1x14x14, S16x64x1x14x14, S16x64x1x14x14, S16x64x1x14x14, S16x64x1x14x14, S16x64x1x14x14, S16x64x1x14x14] S16x64x9x14x14 2
  shapeCasts_S16x64x9x14x14_S16x576x196 : S16x64x9x14x14.ShapeCasts S16x576x196
  shapeCasts_S64x64x3x3_S64x576 : S64x64x3x3.ShapeCasts S64x576
  bcast_S64x576_S1x64x576x1_1_2 : S64x576.BroadcastsInDim S1x64x576x1 (![1, 2] : Fin 2 → Fin S1x64x576x1.rank)
  bcast_S16x576x196_S16x1x576x196_0_2_3 : S16x576x196.BroadcastsInDim S16x1x576x196 (![0, 2, 3] : Fin 3 → Fin S16x1x576x196.rank)
  bcast_S1x64x576x1_S16x64x576x196_0_1_2_3 : S1x64x576x1.BroadcastsInDim S16x64x576x196 (![0, 1, 2, 3] : Fin 4 → Fin S16x64x576x196.rank)
  bcast_S16x1x576x196_S16x64x576x196_0_1_2_3 : S16x1x576x196.BroadcastsInDim S16x64x576x196 (![0, 1, 2, 3] : Fin 4 → Fin S16x64x576x196.rank)
  reducesTo_S16x64x576x196_S16x64x196_d2 : S16x64x576x196.ReducesTo [2] S16x64x196
  shapeCasts_S16x64x196_S16x64x14x14 : S16x64x196.ShapeCasts S16x64x14x14

variable [Facts₀]

class Facts : Prop extends Facts₀ where

variable [Facts]
-- ==== Proof.KRun.lean ====
/-
  The kernel body run once, on any whole staging buffers.

  At one grid point the body receives a 576×640 block of the folded patch matrix, the whole 576×64
  transposed weight matrix, a 64×640 output buffer and a 64×640 accumulator.  It zeroes the
  accumulator, adds to it eighteen times the column sums of |w - x| over 32 consecutive rows, and
  stores zero minus the accumulator into the output buffer.  Run symbolically, the body terminates
  without fault, leaves both inputs as they were, and leaves in the output buffer a list of stored
  pieces that the run itself finds; the accumulator ends at some contents nobody needs again.
-/
import proofs.«163649_j24756191494450_2_alg».proof.Proof.Gen.Kernel.Launch
import proofs.«163649_j24756191494450_2_alg».proof.Proof.Gen.Kernel.Skeleton
import proofs.«163649_j24756191494450_2_alg».proof.Proof.Gen.Kernel.Points
import proofs.«163649_j24756191494450_2_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's one store leaves in the output buffer (found by the symbolic run), with the
    proof that from the two inputs at contents `x0`, `x1`, the output buffer and the accumulator at
    anything, the body runs to a state holding the inputs unchanged, the output buffer with those
    pieces written, and the accumulator at some contents. -/
noncomputable def kernelRun (c : Dev nD) (i : grid0.Coords) (arg1 : Memref sig .tc .vmem S576x640 .f32) (harg1 : arg1.IsWhole) (arg2 : Memref sig .tc .vmem S576x64 .f32) (harg2 : arg2.IsWhole) (arg3 : Memref sig .tc .vmem S64x640 .f32) (harg3 : arg3.IsWhole) (arg4 : Memref sig .tc .vmem S64x640 .f32) (harg4 : arg4.IsWhole)
    (x0 : Vec F S576x640 .f32) (x1 : Vec F S576x64 .f32) :
    { L : List (View.Piece (Elt F) S64x640 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L) ∗ (∃ f, arg4.view.loc (c : Thread nD τ) ↦[arg4.view.set]{fullShare} f)) -∗ K ⟨⟩))
          ⊢ wp frame (wpE (defs₀ (F := F)) Variants.none c none) E (cc0__l1_kernel i arg1 harg1 arg2 harg2 arg3 harg3 arg4 harg4) K } := by
  refine ⟨?_, fun E K => ?run⟩
  case run =>
    simp only [cc0__l1_kernel_eq_skeleton]; unfold cc0__l1_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.Kernel.Hand

end
-- ==== Proof.KFrame.lean ====
/-
  The program around its one kernel launch, and the launch itself.

  The host first builds, from the image batch and the filter bank, the two arrays the kernel reads
  (the folded and padded patch matrix, 576×3200, and the transposed weight matrix, 576×64); the
  kernel then visits five grid points, point t reading columns 640·t … 640·t+639 of the patch matrix
  and the whole weight matrix and writing columns 640·t … 640·t+639 of a 64×3200 result; four host
  lines after it cut and re-lay that result.  Here: what every buffer holds when the kernel is
  entered (the host lines before it applied to the launch memory), what each grid point leaves in
  its output block (the body's stored pieces read back), that every weakly fair execution of the
  whole program terminates without fault, and that the two argument arrays end as they began.
-/
import proofs.«163649_j24756191494450_2_alg».proof.Proof.KRun
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- Every buffer of core `c` as the kernel launch finds it: the host lines before the launch applied, in order,
    to the launch memory. -/
abbrev V0 (c : Dev nD) : Valuation τ sig (Elt F) := StableHlo.after (List.flatten [hostOps0, hostOps0_1, hostOps0_2, hostOps0_3]) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the launch, the launch, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The lines after the launch touch only buffers that outlive it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes one of the kernel's three arrays: each writes its own result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- No host line before the launch writes the image batch: the launch finds it as the program was started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- Nor the filter bank. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line after the launch writes the image batch either: it ends as the program was started. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor the filter bank. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The blocks the grid points read -/

/-- The block of array `w` (0 the patch matrix, 1 the weight matrix, 2 the result) that grid point `t` works on, read off
    the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- At every grid point the patch matrix's current staging buffer holds the point's block. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- At every grid point the weight matrix's staging buffer holds the whole matrix: it is fetched at the first point and its
    block never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What a grid point leaves in its output block -/

/-- One staging buffer of the result, through which an output block's contents are stated. -/
abbrev VO : View sig .tc .vmem S64x640 .f32 := (Memref.whole cc0_stg2_0 : Memref sig .tc .vmem S64x640 .f32).view
/-- The current staging memrefs at point `t`, as the launch passes them to the body, and the accumulator. -/
abbrev ms0 (t : Fin cfg0.N) : Memref sig .tc .vmem S576x640 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S576x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x640 .f32 := win0_2.stage (cfg0.slots t 2)
abbrev hs2 (t : Fin cfg0.N) : (ms2 t).IsWhole := hstage0_2 ((cfg0.slots t 2).cast nbuf0_2)
abbrev scM : Memref sig .tc .vmem S64x640 .f32 := Memref.whole cc0_scratch0

/-- Besides the windows the body may use the accumulator (a buffer of its own, at any contents) and the random-number
    register, and hands both back. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The body's one store into the output buffer covers all of it. -/
theorem cover_out (c : Dev nD) (i : grid0.Coords) (arg1 : Memref sig .tc .vmem S576x640 .f32) (harg1 : arg1.IsWhole) (arg2 : Memref sig .tc .vmem S576x64 .f32) (harg2 : arg2.IsWhole) (arg3 : Memref sig .tc .vmem S64x640 .f32) (harg3 : arg3.IsWhole) (arg4 : Memref sig .tc .vmem S64x640 .f32) (harg4 : arg4.IsWhole)
    (x0 : Vec F S576x640 .f32) (x1 : Vec F S576x64 .f32) (y : S64x640.Idx) :
    ∃ pc ∈ (kernelRun c i arg1 harg1 arg2 harg2 arg3 harg3 arg4 harg4 x0 x1).1, y ∈ pc.1.set :=
  View.cover_of_tiledL (kernelRun c i arg1 harg1 arg2 harg2 arg3 harg3 arg4 harg4 x0 x1).1 S64x640.size (by sl_kernel_rfl) y

/-- What the body leaves in the output buffer: its stored pieces read back. -/
def outBlock (c : Dev nD) (i : grid0.Coords) (arg1 : Memref sig .tc .vmem S576x640 .f32) (harg1 : arg1.IsWhole) (arg2 : Memref sig .tc .vmem S576x64 .f32) (harg2 : arg2.IsWhole) (arg3 : Memref sig .tc .vmem S64x640 .f32) (harg3 : arg3.IsWhole) (arg4 : Memref sig .tc .vmem S64x640 .f32) (harg4 : arg4.IsWhole)
    (x0 : Vec F S576x640 .f32) (x1 : Vec F S576x64 .f32) : Vec F S64x640 .f32 :=
  VO.read (Elt F) (VO.writes (Elt F) VO.junk (kernelRun c i arg1 harg1 arg2 harg2 arg3 harg3 arg4 harg4 x0 x1).1)

/-- What grid point `t` leaves in the result's staging buffer: the body's output at the point's memrefs and blocks. -/
def outAt (c : Dev nD) (t : Fin cfg0.N) : Vec F S64x640 .f32 :=
  outBlock c (grid0.coords t) (ms0 t) (hs0 t) (ms1 t) (hs1 t) (ms2 t) (hs2 t) scM (Memref.isWhole_whole _) (iblk m c 0 t) (iblk m c 1 t)

/-! ## The launch's proof data -/

/-- The arrays as the launch finds them; after the body at point `t` each input's buffer at its block and the output's at
    `outAt`; the accumulator and the random-number register pass through as the kernel's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

/-- The body at any point: the inputs' buffers hold their blocks, so the run applies; the accumulator comes out of the
    kernel's own resources and goes back at whatever it ends with. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  unfold outAt
  unfold outBlock
  iintro ⟨⟨HS, Hg⟩, Ho, ⟨%d0, H0⟩, ⟨%d1, H1⟩, ⟨%d2, H2⟩⟩
  iapply ((kernelRun c (grid0.coords t) _ _ _ _ _ _ _ _ (iblk m c 0 t) (iblk m c 1 t)).2 Set.univ _)
  isplitl [H0]; · iexact H0
  isplitl [H1]; · iexact H1
  isplitl [H2]; · iexists _; iexact H2
  isplitl [HS]; · iexact HS
  iintro ⟨H0, H1, ⟨%e2, H2⟩, ⟨%e3, HS⟩⟩
  isplitl [HS Hg]
  · isplitl [HS]
    · unfold owns; iexists _, _; isplitr
      swap; · iexact HS
      ipureintro; rfl
    iexact Hg
  isplitl [Ho]; · iexact Ho
  isplitl [H0]; · iexact H0
  isplitl [H1]; · iexact H1
  unfold owns; iexists _; isplitr
  swap; · iexact H2
  ipureintro; exact View.read_writes_of_cover _ _ _ _ _ (cover_out c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- For any float instance, from any memory with zero counters: every weakly fair execution of the program terminates, each
    of the kernel's three arrays ends at what the grid points' blocks make of it, and every other buffer that outlives
    the launch ends as the host lines after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩) (run_main m ρ)

end Cert.Kernel.Hand

end
-- ==== Proof.KRunIdeal.lean ====
/-
  The kernel body run once, on any whole staging buffers.

  At one grid point the body receives a 576×640 block of the folded patch matrix, the whole 576×64
  transposed weight matrix, a 64×640 output buffer and a 64×640 accumulator.  It zeroes the
  accumulator, adds to it eighteen times the column sums of |w - x| over 32 consecutive rows, and
  stores zero minus the accumulator into the output buffer.  Run symbolically, the body terminates
  without fault, leaves both inputs as they were, and leaves in the output buffer a list of stored
  pieces that the run itself finds; the accumulator ends at some contents nobody needs again.
-/
import proofs.«163649_j24756191494450_2_alg».proof.Proof.Gen.KernelIdeal.Launch
import proofs.«163649_j24756191494450_2_alg».proof.Proof.Gen.KernelIdeal.Skeleton
import proofs.«163649_j24756191494450_2_alg».proof.Proof.Gen.KernelIdeal.Points
import proofs.«163649_j24756191494450_2_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's one store leaves in the output buffer (found by the symbolic run), with the
    proof that from the two inputs at contents `x0`, `x1`, the output buffer and the accumulator at
    anything, the body runs to a state holding the inputs unchanged, the output buffer with those
    pieces written, and the accumulator at some contents. -/
noncomputable def kernelRun (c : Dev nD) (i : grid0.Coords) (arg1 : Memref sig .tc .vmem S576x640 .f32) (harg1 : arg1.IsWhole) (arg2 : Memref sig .tc .vmem S576x64 .f32) (harg2 : arg2.IsWhole) (arg3 : Memref sig .tc .vmem S64x640 .f32) (harg3 : arg3.IsWhole) (arg4 : Memref sig .tc .vmem S64x640 .f32) (harg4 : arg4.IsWhole)
    (x0 : Vec F S576x640 .f32) (x1 : Vec F S576x64 .f32) :
    { L : List (View.Piece (Elt F) S64x640 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L) ∗ (∃ f, arg4.view.loc (c : Thread nD τ) ↦[arg4.view.set]{fullShare} f)) -∗ K ⟨⟩))
          ⊢ wp frame (wpE (defs₀ (F := F)) Variants.none c none) E (cc0__l1_kernel i arg1 harg1 arg2 harg2 arg3 harg3 arg4 harg4) K } := by
  refine ⟨?_, fun E K => ?run⟩
  case run =>
    simp only [cc0__l1_kernel_eq_skeleton]; unfold cc0__l1_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.KernelIdeal.Hand

end
-- ==== Proof.KFrameIdeal.lean ====
/-
  The program around its one kernel launch, and the launch itself.

  The host first builds, from the image batch and the filter bank, the two arrays the kernel reads
  (the folded and padded patch matrix, 576×3200, and the transposed weight matrix, 576×64); the
  kernel then visits five grid points, point t reading columns 640·t … 640·t+639 of the patch matrix
  and the whole weight matrix and writing columns 640·t … 640·t+639 of a 64×3200 result; four host
  lines after it cut and re-lay that result.  Here: what every buffer holds when the kernel is
  entered (the host lines before it applied to the launch memory), what each grid point leaves in
  its output block (the body's stored pieces read back), that every weakly fair execution of the
  whole program terminates without fault, and that the two argument arrays end as they began.
-/
import proofs.«163649_j24756191494450_2_alg».proof.Proof.KRunIdeal
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- Every buffer of core `c` as the kernel launch finds it: the host lines before the launch applied, in order,
    to the launch memory. -/
abbrev V0 (c : Dev nD) : Valuation τ sig (Elt F) := StableHlo.after (List.flatten [hostOps0, hostOps0_1, hostOps0_2, hostOps0_3]) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the launch, the launch, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The lines after the launch touch only buffers that outlive it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes one of the kernel's three arrays: each writes its own result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- No host line before the launch writes the image batch: the launch finds it as the program was started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- Nor the filter bank. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host line after the launch writes the image batch either: it ends as the program was started. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor the filter bank. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The blocks the grid points read -/

/-- The block of array `w` (0 the patch matrix, 1 the weight matrix, 2 the result) that grid point `t` works on, read off
    the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- At every grid point the patch matrix's current staging buffer holds the point's block. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- At every grid point the weight matrix's staging buffer holds the whole matrix: it is fetched at the first point and its
    block never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What a grid point leaves in its output block -/

/-- One staging buffer of the result, through which an output block's contents are stated. -/
abbrev VO : View sig .tc .vmem S64x640 .f32 := (Memref.whole cc0_stg2_0 : Memref sig .tc .vmem S64x640 .f32).view
/-- The current staging memrefs at point `t`, as the launch passes them to the body, and the accumulator. -/
abbrev ms0 (t : Fin cfg0.N) : Memref sig .tc .vmem S576x640 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S576x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x640 .f32 := win0_2.stage (cfg0.slots t 2)
abbrev hs2 (t : Fin cfg0.N) : (ms2 t).IsWhole := hstage0_2 ((cfg0.slots t 2).cast nbuf0_2)
abbrev scM : Memref sig .tc .vmem S64x640 .f32 := Memref.whole cc0_scratch0

/-- Besides the windows the body may use the accumulator (a buffer of its own, at any contents) and the random-number
    register, and hands both back. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The body's one store into the output buffer covers all of it. -/
theorem cover_out (c : Dev nD) (i : grid0.Coords) (arg1 : Memref sig .tc .vmem S576x640 .f32) (harg1 : arg1.IsWhole) (arg2 : Memref sig .tc .vmem S576x64 .f32) (harg2 : arg2.IsWhole) (arg3 : Memref sig .tc .vmem S64x640 .f32) (harg3 : arg3.IsWhole) (arg4 : Memref sig .tc .vmem S64x640 .f32) (harg4 : arg4.IsWhole)
    (x0 : Vec F S576x640 .f32) (x1 : Vec F S576x64 .f32) (y : S64x640.Idx) :
    ∃ pc ∈ (kernelRun c i arg1 harg1 arg2 harg2 arg3 harg3 arg4 harg4 x0 x1).1, y ∈ pc.1.set :=
  View.cover_of_tiledL (kernelRun c i arg1 harg1 arg2 harg2 arg3 harg3 arg4 harg4 x0 x1).1 S64x640.size (by sl_kernel_rfl) y

/-- What the body leaves in the output buffer: its stored pieces read back. -/
def outBlock (c : Dev nD) (i : grid0.Coords) (arg1 : Memref sig .tc .vmem S576x640 .f32) (harg1 : arg1.IsWhole) (arg2 : Memref sig .tc .vmem S576x64 .f32) (harg2 : arg2.IsWhole) (arg3 : Memref sig .tc .vmem S64x640 .f32) (harg3 : arg3.IsWhole) (arg4 : Memref sig .tc .vmem S64x640 .f32) (harg4 : arg4.IsWhole)
    (x0 : Vec F S576x640 .f32) (x1 : Vec F S576x64 .f32) : Vec F S64x640 .f32 :=
  VO.read (Elt F) (VO.writes (Elt F) VO.junk (kernelRun c i arg1 harg1 arg2 harg2 arg3 harg3 arg4 harg4 x0 x1).1)

/-- What grid point `t` leaves in the result's staging buffer: the body's output at the point's memrefs and blocks. -/
def outAt (c : Dev nD) (t : Fin cfg0.N) : Vec F S64x640 .f32 :=
  outBlock c (grid0.coords t) (ms0 t) (hs0 t) (ms1 t) (hs1 t) (ms2 t) (hs2 t) scM (Memref.isWhole_whole _) (iblk m c 0 t) (iblk m c 1 t)

/-! ## The launch's proof data -/

/-- The arrays as the launch finds them; after the body at point `t` each input's buffer at its block and the output's at
    `outAt`; the accumulator and the random-number register pass through as the kernel's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

/-- The body at any point: the inputs' buffers hold their blocks, so the run applies; the accumulator comes out of the
    kernel's own resources and goes back at whatever it ends with. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  unfold outAt
  unfold outBlock
  iintro ⟨⟨HS, Hg⟩, Ho, ⟨%d0, H0⟩, ⟨%d1, H1⟩, ⟨%d2, H2⟩⟩
  iapply ((kernelRun c (grid0.coords t) _ _ _ _ _ _ _ _ (iblk m c 0 t) (iblk m c 1 t)).2 Set.univ _)
  isplitl [H0]; · iexact H0
  isplitl [H1]; · iexact H1
  isplitl [H2]; · iexists _; iexact H2
  isplitl [HS]; · iexact HS
  iintro ⟨H0, H1, ⟨%e2, H2⟩, ⟨%e3, HS⟩⟩
  isplitl [HS Hg]
  · isplitl [HS]
    · unfold owns; iexists _, _; isplitr
      swap; · iexact HS
      ipureintro; rfl
    iexact Hg
  isplitl [Ho]; · iexact Ho
  isplitl [H0]; · iexact H0
  isplitl [H1]; · iexact H1
  unfold owns; iexists _; isplitr
  swap; · iexact H2
  ipureintro; exact View.read_writes_of_cover _ _ _ _ _ (cover_out c _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- For any float instance, from any memory with zero counters: every weakly fair execution of the program terminates, each
    of the kernel's three arrays ends at what the grid points' blocks make of it, and every other buffer that outlives
    the launch ends as the host lines after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩) (run_main m ρ)

end Cert.KernelIdeal.Hand

end
-- ==== Proof.KValue.lean ====
/-
  What one grid point's output block holds, as a recurrence.

  The body keeps a 64×640 accumulator: zero at first; trip k of its eighteen-trip loop replaces it by
  the trip's payload of rows 32k … 32k+31 of the patch block, the same rows of the weight matrix and the
  accumulator's current contents; the output block is the final payload of the last accumulator.  The
  symbolic run found the block as stored pieces over the loop's own piece lists; here those lists are
  opened once and the block is restated as that recurrence, for any float instance.
-/
import proofs.«163649_j24756191494450_2_alg».proof.Proof.KFrameIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows 32k … 32k+31 of the patch block, all 640 columns. -/
abbrev rX (k : Fin k0_t1_loop.trips) : Rect S576x640 := Rect.unit (s := S576x640) (k0_off1 k) S32x640.size (k0_off1_inb k)
/-- Rows 32k … 32k+31 of the weight matrix, all 64 columns. -/
abbrev rW (k : Fin k0_t1_loop.trips) : Rect S576x64 := Rect.unit (s := S576x64) (k0_off2 k) S32x64.size (k0_off2_inb k)
/-- The whole 64×640 buffer. -/
abbrev rAll : Rect S64x640 := Rect.unit (s := S64x640) ![0, 0] S64x640.size inb_S64x640_S64x640_0_0

theorem zeroOff : (![0, 0] : Fin 2 → Nat) = fun _ => 0 := funext fun a => by fin_cases a <;> rfl

/-- The accumulator before trip `k`: zero, then one payload per trip. -/
def acc (x0 : Vec F S576x640 .f32) (x1 : Vec F S576x64 .f32) : ℕ → Vec F S64x640 .f32
  | 0 => k0_pay1
  | k + 1 => if h : k < k0_t1_loop.trips then k0_pay2 (View.ld x0 (rX ⟨k, h⟩)) (View.ld x1 (rW ⟨k, h⟩)) (acc x0 x1 k) else acc x0 x1 k

/-- One trip stores one piece: over the whole accumulator, the payload of the two row blocks it loads and of the
    accumulator as it finds it. -/
theorem tripL_eq (𝒱 : Variants) (c : Dev nD) (bd : Option 𝒱.V) (i : grid0.Coords) (arg1 : Memref sig .tc .vmem S576x640 .f32) (harg1 : arg1.IsWhole) (arg2 : Memref sig .tc .vmem S576x64 .f32) (harg2 : arg2.IsWhole) (arg3 : Memref sig .tc .vmem S64x640 .f32) (harg3 : arg3.IsWhole) (arg4 : Memref sig .tc .vmem S64x640 .f32) (harg4 : arg4.IsWhole) (X1 : BufTy.Contents (Elt F) arg1.view.ty) (X2 : BufTy.Contents (Elt F) arg2.view.ty) (k : Fin k0_t1_loop.trips) (f : BufTy.Contents (Elt F) arg4.view.ty) :
    tripL_k0_t1 (F := F) 𝒱 c bd i arg1 harg1 arg2 harg2 arg3 harg3 arg4 harg4 X1 X2 k f
      = [⟨rAll, k0_pay2 (View.readAt (Elt F) arg1.view (rX k).toLoadRect X1) (View.readAt (Elt F) arg2.view (rW k).toLoadRect X2) (View.readAt (Elt F) arg4.view rAll.toLoadRect f)⟩] := by
  unfold tripL_k0_t1 trip_k0_t1; rfl

/-- A store over the whole buffer leaves its payload, whatever was there. -/
theorem read_write_all {sg : RefSig} {κ : Kind} {sp : Space} (v : View sg κ sp S64x640 .f32) (f : v.ty.Contents (Elt F)) (w : Vec F S64x640 .f32) :
    v.read (Elt F) (v.writes (Elt F) f [⟨rAll, w⟩]) = w := by
  have hc : ∀ y : S64x640.Idx, ∃ p ∈ ([⟨rAll, w⟩] : List (View.Piece (Elt F) S64x640 .f32)), y ∈ p.1.set :=
    fun y => ⟨⟨rAll, w⟩, List.mem_singleton_self _, (show y ∈ rAll.set from View.mem_set_unit_zero zeroOff inb_S64x640_S64x640_0_0 y)⟩
  rw [View.read_writes_eq_canon v f _ hc]
  exact View.canon_unit_zero zeroOff inb_S64x640_S64x640_0_0 w

/-- After `k` trips the accumulator holds `acc k` of the two input blocks. -/
theorem acc_inv (c : Dev nD) (i : grid0.Coords) (arg1 : Memref sig .tc .vmem S576x640 .f32) (harg1 : arg1.IsWhole) (arg2 : Memref sig .tc .vmem S576x64 .f32) (harg2 : arg2.IsWhole) (arg3 : Memref sig .tc .vmem S64x640 .f32) (harg3 : arg3.IsWhole) (arg4 : Memref sig .tc .vmem S64x640 .f32) (harg4 : arg4.IsWhole)
    (x0 : Vec F S576x640 .f32) (x1 : Vec F S576x64 .f32) (f0 : BufTy.Contents (Elt F) arg4.view.ty) :
    ∀ k : ℕ, k ≤ k0_t1_loop.trips →
      arg4.view.read (Elt F) (arg4.view.writes (Elt F) (arg4.view.writes (Elt F) f0 [⟨rAll, k0_pay1⟩])
        (pb_k0_t1 (F := F) Variants.none c none i arg1 harg1 arg2 harg2 arg3 harg3 arg4 harg4 (harg1.unread x0) (harg2.unread x1) (arg4.view.writes (Elt F) f0 [⟨rAll, k0_pay1⟩]) k))
      = acc x0 x1 k
  | 0, _ => by
    rw [pb_k0_t1.eq_1, View.writes_nil, read_write_all]; rfl
  | k + 1, hk => by
    have hlt : k < k0_t1_loop.trips := hk
    have ih := acc_inv c i arg1 harg1 arg2 harg2 arg3 harg3 arg4 harg4 x0 x1 f0 k (Nat.le_of_lt hlt)
    rw [show k + 1 = (⟨k, hlt⟩ : Fin k0_t1_loop.trips).val + 1 from rfl, pb_k0_t1_succ, tripL_eq, View.writes_append, read_write_all]
    rw [acc, dif_pos hlt]
    rw [View.readAt_eq_ld, View.readAt_eq_ld, View.readAt_eq_ld, harg1.read_unread, harg2.read_unread, View.ld_unit_zero (S := S64x640) zeroOff]
    exact congrArg _ ih

/-- The output block is the final payload of the accumulator after all the trips. -/
theorem outBlock_eq (c : Dev nD) (i : grid0.Coords) (arg1 : Memref sig .tc .vmem S576x640 .f32) (harg1 : arg1.IsWhole) (arg2 : Memref sig .tc .vmem S576x64 .f32) (harg2 : arg2.IsWhole) (arg3 : Memref sig .tc .vmem S64x640 .f32) (harg3 : arg3.IsWhole) (arg4 : Memref sig .tc .vmem S64x640 .f32) (harg4 : arg4.IsWhole)
    (x0 : Vec F S576x640 .f32) (x1 : Vec F S576x64 .f32) :
    outBlock c i arg1 harg1 arg2 harg2 arg3 harg3 arg4 harg4 x0 x1 = k0_pay3 (acc x0 x1 k0_t1_loop.trips) := by
  unfold outBlock
  rw [View.read_writes_eq_canon _ _ _ (cover_out c i arg1 harg1 arg2 harg2 arg3 harg3 arg4 harg4 x0 x1)]
  unfold kernelRun
  dsimp only
  sl_unfold_words
  rw [View.canon_unit_zero zeroOff]
  refine congrArg k0_pay3 ?_
  rw [View.readAt_eq_ld, View.ld_unit_zero (S := S64x640) zeroOff, View.writes_append]
  exact acc_inv c i arg1 harg1 arg2 harg2 arg3 harg3 arg4 harg4 x0 x1 _ _ (Nat.le_refl _)

end Cert.KernelIdeal.Hand

end
-- ==== Proof.Payload.lean ====
/-
  The kernel body's three stored values, each read at ONE index at the ideal values:
  the accumulator's start (zero), one trip's update (the accumulator plus a column sum of absolute
  differences over 32 rows), and the final store (the accumulator negated).
-/
import proofs.«163649_j24756191494450_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

namespace Cert.KernelIdeal.Payload

open Cert.KernelIdeal Cert.KernelIdeal.Gen Idealize.ShloMosaic Idealize.ShloMosaic.ValueIdx
open scoped BigOperators

/-! ## Unit axes added by a shape cast, and broadcast over

A matrix [a, b] viewed as [a, b, 1] or as [a, 1, b] keeps its row-major order, so the entry at (i, j) sits at
(i, j, 0), respectively (i, 0, j). Broadcasting such an array along its unit axis copies that entry to every
coordinate of the axis. -/

section UnitAxes
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- A `[32, 64, 1]` array broadcast to `[32, 64, 640]` reads, at `(e, f, j)`, the operand at `(e, f, 0)`. -/
theorem broadcastTo_lastUnit_apply (x : S32x64x1.Idx → α) (h : S32x64x1.Broadcasts S32x64x640)
    (e : Fin 32) (f : Fin 64) (j : Fin 640) :
    broadcastTo S32x64x640 x h (ix3 e f j) = x (ix3 e f (0 : Fin 1)) :=
  broadcastTo_apply x h (ix3 e f j) (ix3 e f (0 : Fin 1)) fun a =>
    match a with | ⟨0, _⟩ => rfl | ⟨1, _⟩ => rfl | ⟨2, _⟩ => rfl

/-- A `[32, 1, 640]` array broadcast to `[32, 64, 640]` reads, at `(e, f, j)`, the operand at `(e, 0, j)`. -/
theorem broadcastTo_midUnit_apply (x : S32x1x640.Idx → α) (h : S32x1x640.Broadcasts S32x64x640)
    (e : Fin 32) (f : Fin 64) (j : Fin 640) :
    broadcastTo S32x64x640 x h (ix3 e f j) = x (ix3 e (0 : Fin 1) j) :=
  broadcastTo_apply x h (ix3 e f j) (ix3 e (0 : Fin 1) j) fun a =>
    match a with | ⟨0, _⟩ => rfl | ⟨1, _⟩ => rfl | ⟨2, _⟩ => rfl

end UnitAxes

/-! ## The sum over the leading axis

At the ideal values an add-reduction of a [32, 64, 640] array over its leading axis, started from the zero word,
is at (f, j) the plain sum over e of the entries (e, f, j): zero is the sum's neutral element, so it adds nothing. -/

/-- The source index over `(f, j)` with `e` inserted on the reduced leading axis is `(e, f, j)`. -/
theorem lift_lead (h : S32x64x640.Reduces [0] S64x640) (f : Fin 64) (j : Fin 640) (e : Fin 32) :
    h.lift (ix2 f j) e = ix3 e f j := by
  funext c
  match c with
  | ⟨0, _⟩ => exact Fin.ext rfl
  | ⟨1, _⟩ => exact Fin.ext rfl
  | ⟨2, _⟩ => exact Fin.ext rfl

/-- The add-reduction over the leading axis, from the zero word, read at `(f, j)`. -/
theorem reduce_lead_apply (src : FVec Ideal S32x64x640 .f32) (h : S32x64x640.Reduces [0] S64x640)
    (hφ : FKind.Formats .f32) (hacc : (0x00000000#32 : BitVec 32) = 0x00000000#32) (f : Fin 64) (j : Fin 640) :
    multiReduction (F := Ideal) .add [0] S64x640 src 0x00000000#32 h hφ hacc (ix2 f j)
      = ∑ e : Fin 32, src (ix3 e f j) :=
  (Ideal.multiReduction_add_single src 0x00000000#32 h hφ hacc (ix2 f j)).trans
    (Finset.sum_congr rfl fun e _ => congrArg src (lift_lead h f j e))

/-! ## The three payloads -/

/-- The accumulator starts at zero: the zero word's value, broadcast, through a cast to its own shape. -/
theorem pay1_apply (f : Fin 64) (j : Fin 640) : k0_pay1 (F := Ideal) (ix2 f j) = 0 := by
  unfold k0_pay1
  refine (congrFun (shapeCast_self _ _) (ix2 f j)).trans ?_
  exact Ideal.ofBits_zero_f32

/-- The final store is zero minus the accumulator: its negation. -/
theorem pay3_apply (v5 : Vec Ideal S64x640 .f32) (f : Fin 64) (j : Fin 640) :
    k0_pay3 (F := Ideal) v5 (ix2 f j) = - v5 (ix2 f j) := by
  unfold k0_pay3
  show Ideal.ofBits .f32 0x00000000#32 - v5 (ix2 f j) = - v5 (ix2 f j)
  rw [Ideal.ofBits_zero_f32, zero_sub]

/-- One trip: the accumulator plus, over the 32 rows `e` of the two blocks, the sum of |w[e, f] − x[e, j]|. -/
theorem pay2_apply (v14 : Vec Ideal S32x640 .f32) (v17 : Vec Ideal S32x64 .f32) (v25 : Vec Ideal S64x640 .f32)
    (f : Fin 64) (j : Fin 640) :
    k0_pay2 (F := Ideal) v14 v17 v25 (ix2 f j)
      = v25 (ix2 f j) + ∑ e : Fin 32, FloatOps.absf (F := Ideal) (φ := .f32) (v17 (ix2 e f) - v14 (ix2 e j)) := by
  unfold k0_pay2
  -- the closing cast to the same shape, then the sum of the accumulator and the reduction, entry by entry
  refine (congrFun (shapeCast_self _ _) (ix2 f j)).trans ?_
  refine congrArg (fun r => v25 (ix2 f j) + r) ?_
  -- the reduction is the sum over the 32 rows
  refine (reduce_lead_apply _ _ _ _ f j).trans ?_
  refine Finset.sum_congr rfl fun e _ => ?_
  -- absolute value and difference act entry by entry
  show FloatOps.absf (F := Ideal) (φ := .f32) (_ - _) = _
  refine congrArg (fun r => FloatOps.absf (F := Ideal) (φ := .f32) r) ?_
  refine congrArg₂ (fun p q : EReal => p - q) ?_ ?_
  · -- the weights' block: [32, 64] → [32, 64, 1] → broadcast along the last axis
    refine (broadcastTo_lastUnit_apply _ _ e f j).trans ?_
    refine (shapeCast_ab_ab1_apply _ _ e f (0 : Fin 1)).trans ?_
    exact congrFun (shapeCast_self _ _) (ix2 e f)
  · -- the patches' block: [32, 640] → [32, 1, 640] → broadcast along the middle axis
    refine (broadcastTo_midUnit_apply _ _ e f j).trans ?_
    refine (shapeCast_ab_a1b_apply _ _ e (0 : Fin 1) j).trans ?_
    exact congrFun (shapeCast_self _ _) (ix2 e j)

end Cert.KernelIdeal.Payload
-- ==== Proof.LibBlockSum.lean ====
/-
  Sums over a long axis taken block by block.

  A kernel that walks an axis of extent `N = T * R` in `T` blocks of `R` rows and keeps a running total adds up, in the
  end, the same terms as one sum over the whole axis: in a commutative monoid (the extended reals under `+` are one, infinities
  included) only the grouping differs.  Stated over an arbitrary commutative monoid, for literal or symbolic extents.
-/
import Idealize.ShloMosaic.Lib.ValueIdx

namespace Cert.LibBlockSum

open Finset

variable {M : Type*} [AddCommMonoid M]

/-- Row `r` of block `t`, as a row of the whole axis: `t * R + r`. -/
def row {T R : ℕ} (t : Fin T) (r : Fin R) : Fin (T * R) :=
  ⟨t.val * R + r.val, by
    have ht := t.isLt
    have hr := r.isLt
    calc t.val * R + r.val < t.val * R + R := by omega
      _ = (t.val + 1) * R := by ring
      _ ≤ T * R := Nat.mul_le_mul_right R ht⟩

@[simp] theorem row_val {T R : ℕ} (t : Fin T) (r : Fin R) : (row t r).val = t.val * R + r.val := rfl

/-- A sum over an axis of extent `T * R` is the sum over the `T` blocks of the sums over each block's `R` rows. -/
theorem sum_blocks (T R : ℕ) (f : Fin (T * R) → M) :
    ∑ i, f i = ∑ t : Fin T, ∑ r : Fin R, f (row t r) := by
  rw [← Equiv.sum_comp finProdFinEquiv f, Fintype.sum_prod_type]
  refine Finset.sum_congr rfl fun t _ => Finset.sum_congr rfl fun r _ => congrArg f ?_
  apply Fin.ext
  simp only [finProdFinEquiv_apply_val, row_val]
  ring

/-- The same over an axis whose extent `N` is given as a number with `T * R = N` (for instance `20 * 5000 = 100000`):
    the row `t * R + r` is named by its value. -/
theorem sum_blocks_of_eq {N : ℕ} (T R : ℕ) (h : T * R = N) (f : Fin N → M) :
    ∑ i, f i = ∑ t : Fin T, ∑ r : Fin R,
      f ⟨t.val * R + r.val, h ▸ (row t r).isLt⟩ := by
  subst h
  exact sum_blocks T R f

/-- A running total: start from `0`, add `g 0`, then `g 1`, … — what an accumulator holds after `k` steps. -/
def running (g : ℕ → M) : ℕ → M
  | 0 => 0
  | k + 1 => running g k + g k

@[simp] theorem running_zero (g : ℕ → M) : running g 0 = 0 := rfl
@[simp] theorem running_succ (g : ℕ → M) (k : ℕ) : running g (k + 1) = running g k + g k := rfl

/-- After `k` steps the accumulator holds the sum of the first `k` contributions. -/
theorem running_eq_sum_range (g : ℕ → M) (k : ℕ) : running g k = ∑ t ∈ Finset.range k, g t := by
  induction k with
  | zero => simp
  | succ k ih => rw [running_succ, ih, Finset.sum_range_succ]

/-- After all `T` steps: the sum over the `T` blocks. -/
theorem running_eq_sum_fin (g : ℕ → M) (T : ℕ) : running g T = ∑ t : Fin T, g t.val := by
  rw [running_eq_sum_range, Finset.sum_range]

/-- An accumulator fed block sums of `f` ends at the sum of `f` over the whole axis. -/
theorem running_blocks (T R : ℕ) (f : Fin (T * R) → M) (g : ℕ → M)
    (hg : ∀ t : Fin T, g t.val = ∑ r : Fin R, f (row t r)) :
    running g T = ∑ i, f i := by
  rw [running_eq_sum_fin, sum_blocks]
  exact Finset.sum_congr rfl fun t _ => hg t

end Cert.LibBlockSum
-- ==== Proof.KAcc.lean ====
/-
  One output block as a sum.

  On the extended reals the accumulator after k trips, at row f and column j, is the running total of k
  contributions, the k-th being the sum over the 32 rows 32k … 32k+31 of |w[d, f] - x[d, j]|; eighteen
  blocks of 32 rows are all 576 rows, and a sum of extended reals does not depend on its grouping, so the
  block's entry is minus the sum over all 576 rows.
-/
import proofs.«163649_j24756191494450_2_alg».proof.Proof.KValue
import proofs.«163649_j24756191494450_2_alg».proof.Proof.Payload
import proofs.«163649_j24756191494450_2_alg».proof.Proof.LibBlockSum
import Idealize.ShloMosaic.Lib.ValueIdx

set_option maxRecDepth 16384

noncomputable section

open scoped BigOperators

namespace Cert.KernelIdeal.Hand

open Cert.KernelIdeal Cert.KernelIdeal.Gen Cert.KernelIdeal.Payload
open Idealize.ShloMosaic Idealize.ShloMosaic.ValueIdx

/-- The loop makes eighteen trips. -/
theorem trips_eq : k0_t1_loop.trips = 18 := by decide
/-- Trip k loads rows 32k … of the patch block -/
theorem off1_eq : ∀ k : Fin k0_t1_loop.trips, k0_off1 k = ![32 * k.val, 0] := by decide +kernel
/-- and the same rows of the weight matrix. -/
theorem off2_eq : ∀ k : Fin k0_t1_loop.trips, k0_off2 k = ![32 * k.val, 0] := by decide +kernel

/-- Row e of the 32 rows trip k loads from the patch block is row 32k + e of the block. -/
theorem ldX_apply (x0 : Vec Ideal S576x640 .f32) (k : Fin k0_t1_loop.trips) (e : Fin 32) (jj : Fin 640) :
    View.ld x0 (rX k) (ix2 e jj) = x0 (ix2 ⟨32 * k.val + e.val, by have hk := Nat.lt_of_lt_of_eq k.isLt trips_eq; have he := e.isLt; omega⟩ jj) := by
  show x0 ((rX k).idx (ix2 e jj)) = _
  refine congrArg x0 ?_
  funext a; apply Fin.ext
  match a with
  | ⟨0, _⟩ => show (k0_off1 k) 0 + 1 * e.val = 32 * k.val + e.val; rw [off1_eq k]; show 32 * k.val + 1 * e.val = _; omega
  | ⟨1, _⟩ => show (k0_off1 k) 1 + 1 * jj.val = jj.val; rw [off1_eq k]; show 0 + 1 * jj.val = _; omega
/-- Likewise for the weight matrix. -/
theorem ldW_apply (x1 : Vec Ideal S576x64 .f32) (k : Fin k0_t1_loop.trips) (e : Fin 32) (f : Fin 64) :
    View.ld x1 (rW k) (ix2 e f) = x1 (ix2 ⟨32 * k.val + e.val, by have hk := Nat.lt_of_lt_of_eq k.isLt trips_eq; have he := e.isLt; omega⟩ f) := by
  show x1 ((rW k).idx (ix2 e f)) = _
  refine congrArg x1 ?_
  funext a; apply Fin.ext
  match a with
  | ⟨0, _⟩ => show (k0_off2 k) 0 + 1 * e.val = 32 * k.val + e.val; rw [off2_eq k]; show 32 * k.val + 1 * e.val = _; omega
  | ⟨1, _⟩ => show (k0_off2 k) 1 + 1 * f.val = f.val; rw [off2_eq k]; show 0 + 1 * f.val = _; omega

/-- One term: |w[d, f] - x[d, j]|. -/
def rowTerm (x0 : Vec Ideal S576x640 .f32) (x1 : Vec Ideal S576x64 .f32) (f : Fin 64) (jj : Fin 640) (d : Fin 576) : EReal :=
  FloatOps.absf (F := Ideal) (φ := .f32) (x1 (ix2 d f) - x0 (ix2 d jj))

/-- Trip k's contribution: the sum of the terms of its 32 rows (nothing past the last trip). -/
def contrib (x0 : Vec Ideal S576x640 .f32) (x1 : Vec Ideal S576x64 .f32) (f : Fin 64) (jj : Fin 640) (k : ℕ) : EReal :=
  if h : k < 18 then ∑ e : Fin 32, rowTerm x0 x1 f jj ⟨32 * k + e.val, by have he := e.isLt; omega⟩ else 0

/-- The accumulator after k trips is the running total of the first k contributions. -/
theorem acc_apply (x0 : Vec Ideal S576x640 .f32) (x1 : Vec Ideal S576x64 .f32) (f : Fin 64) (jj : Fin 640) :
    ∀ k : ℕ, k ≤ 18 → acc (F := Ideal) x0 x1 k (ix2 f jj) = Cert.LibBlockSum.running (contrib x0 x1 f jj) k
  | 0, _ => by rw [acc, pay1_apply]; rfl
  | k + 1, hk => by
    have hlt : k < k0_t1_loop.trips := by rw [trips_eq]; omega
    have h18 : k < 18 := by omega
    rw [acc, dif_pos hlt, pay2_apply, acc_apply x0 x1 f jj k (by omega), Cert.LibBlockSum.running_succ]
    refine congrArg _ ?_
    rw [contrib, dif_pos h18]
    refine Finset.sum_congr rfl fun e _ => ?_
    rw [ldW_apply, ldX_apply]; rfl

/-- The block's entry at row f, column j: minus the sum over all 576 rows. -/
theorem block_apply (x0 : Vec Ideal S576x640 .f32) (x1 : Vec Ideal S576x64 .f32) (f : Fin 64) (jj : Fin 640) :
    k0_pay3 (F := Ideal) (acc (F := Ideal) x0 x1 k0_t1_loop.trips) (ix2 f jj) = -(∑ d : Fin 576, rowTerm x0 x1 f jj d) := by
  rw [pay3_apply, trips_eq, acc_apply x0 x1 f jj 18 (Nat.le_refl _)]
  refine congrArg _ ?_
  have h := Cert.LibBlockSum.running_blocks 18 32 (fun i : Fin (18 * 32) => rowTerm x0 x1 f jj ⟨i.val, i.isLt⟩) (contrib x0 x1 f jj) (fun t => by
    rw [contrib, dif_pos t.isLt]
    refine Finset.sum_congr rfl fun e _ => congrArg _ (Fin.ext ?_)
    show 32 * t.val + e.val = t.val * 32 + e.val
    omega)
  rw [h]

end Cert.KernelIdeal.Hand

end
-- ==== Proof.KFinal.lean ====
/-
  The kernel's whole 64×3200 result from its five blocks.

  Grid point t reads columns 640·t … 640·t+639 of the patch matrix and the whole weight matrix and writes
  columns 640·t … 640·t+639 of the result; the five blocks tile the result, and each holds, at row f and
  column j, minus the sum over the 576 rows d of |W[d, f] - X[d, j]|.  So after the launch the whole result
  is that one function of the two matrices as the launch found them.
-/
import proofs.«163649_j24756191494450_2_alg».proof.Proof.KAcc
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The result at row f, column j: minus the L1 distance between column f of the weight matrix and column j of the
    patch matrix. -/
def KAt (Xt : Vec Ideal S576x3200 .f32) (Wt : Vec Ideal S576x64 .f32) (f : Fin 64) (j : Fin 3200) : EReal :=
  -(∑ d : Fin 576, FloatOps.absf (F := Ideal) (φ := .f32) (Wt (ix2 d f) - Xt (ix2 d j)))

/-- The whole result as one function of the two matrices. -/
def Kfun (Xt : Vec Ideal S576x3200 .f32) (Wt : Vec Ideal S576x64 .f32) : Vec Ideal S64x3200 .f32 :=
  fun i => KAt Xt Wt (i 0) (i 1)

/-- Where the three blocks of grid point t sit: the patch block and the result block at column block t, everything else
    at the origin. -/
theorem idx_facts : ∀ t : Fin cfg0.N, win0_0.index t (0 : Fin 2) = 0 ∧ win0_0.index t (1 : Fin 2) = win0_2.index t (1 : Fin 2)
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- What grid point t writes back is block t of the one function. -/
theorem flushed_eq (c : Dev nD) (t : Fin cfg0.N) :
    (dats m 0 c).flushed 2 t = ((cfg0.win 2).blk t).view.read (Elt Ideal) (Kfun (V m c main_v25) (V m c main_v22)) := by
  show (cfg0.win 2).cut (grid0.coords t) ((dats m 0 c).after 2 t) = _
  rw [after0_2]
  unfold outAt
  rw [outBlock_eq]
  obtain ⟨e0, e1, e2, e3, e4, e5⟩ := idx_facts t
  funext (y : S64x640.Idx)
  obtain ⟨f, jj, rfl⟩ : ∃ (f : Fin 64) (jj : Fin 640), y = ix2 f jj := ⟨y 0, y 1, eq_ix2 y⟩
  show k0_pay3 (F := Ideal) (acc (F := Ideal) (iblk m c 0 t) (iblk m c 1 t) k0_t1_loop.trips) (ix2 f jj)
    = KAt (V m c main_v25) (V m c main_v22) ((((cfg0.win 2).blk t).view.emb (ix2 f jj)) 0) ((((cfg0.win 2).blk t).view.emb (ix2 f jj)) 1)
  refine (block_apply (iblk m c 0 t) (iblk m c 1 t) f jj).trans ?_
  unfold KAt
  refine congrArg _ (Finset.sum_congr rfl fun d _ => ?_)
  unfold rowTerm
  have hW : iblk m c 1 t (ix2 d f) = V m c main_v22 (ix2 d ((((cfg0.win 2).blk t).view.emb (ix2 f jj)) 0)) := by
    show V m c main_v22 (((cfg0.win 1).blk t).view.emb (ix2 d f)) = _
    refine congrArg _ ?_
    funext a; apply Fin.ext
    match a with
    | ⟨0, _⟩ => show win0_1.index t (0 : Fin 2) * 576 + 1 * d.val = d.val; omega
    | ⟨1, _⟩ => show win0_1.index t (1 : Fin 2) * 64 + 1 * f.val = win0_2.index t (0 : Fin 2) * 64 + 1 * f.val; omega
  have hX : iblk m c 0 t (ix2 d jj) = V m c main_v25 (ix2 d ((((cfg0.win 2).blk t).view.emb (ix2 f jj)) 1)) := by
    show V m c main_v25 (((cfg0.win 0).blk t).view.emb (ix2 d jj)) = _
    refine congrArg _ ?_
    funext a; apply Fin.ext
    match a with
    | ⟨0, _⟩ => show win0_0.index t (0 : Fin 2) * 576 + 1 * d.val = d.val; omega
    | ⟨1, _⟩ => show win0_0.index t (1 : Fin 2) * 640 + 1 * jj.val = win0_2.index t (1 : Fin 2) * 640 + 1 * jj.val; omega
  rw [hW, hX]

/-- An index of the result is in point t's block iff each coordinate is in the block's range. -/
theorem mem_blk (t : Fin cfg0.N) (i : S64x3200.Idx) :
    i ∈ ((cfg0.win 2).blk t).view.set ↔ ∀ a : Fin 2, win0_2.index t a * S64x640.size a ≤ (i a).val ∧ (i a).val < win0_2.index t a * S64x640.size a + S64x640.size a := by
  show i ∈ ((View.whole main_v26).slice (win0_2.rect t)).set ↔ _
  rw [View.set_slice_whole, Rect.mem_set_unit]
  exact Iff.rfl

/-- Every index of the result is in the block of the point its column belongs to. -/
theorem cover (i : S64x3200.Idx) : ∃ t : Fin cfg0.N, (cfg0.win 2).flush t = true ∧ i ∈ ((cfg0.win 2).blk t).view.set := by
  have hi0 : (i 0).val < 64 := (i 0).isLt
  have hi1 : (i 1).val < 3200 := (i 1).isLt
  have hN : cfg0.N = 5 := N_0
  have ht : (i 1).val / 640 < cfg0.N := by rw [hN]; omega
  obtain ⟨e0, e1, e2, e3, e4, e5⟩ := idx_facts ⟨(i 1).val / 640, ht⟩
  refine ⟨⟨(i 1).val / 640, ht⟩, flush0_2 _, ?_⟩
  rw [mem_blk]
  intro a
  match a with
  | ⟨0, _⟩ => show win0_2.index ⟨(i 1).val / 640, ht⟩ (0 : Fin 2) * 64 ≤ (i 0).val ∧ (i 0).val < win0_2.index ⟨(i 1).val / 640, ht⟩ (0 : Fin 2) * 64 + 64; omega
  | ⟨1, _⟩ =>
    show win0_2.index ⟨(i 1).val / 640, ht⟩ (1 : Fin 2) * 640 ≤ (i 1).val ∧ (i 1).val < win0_2.index ⟨(i 1).val / 640, ht⟩ (1 : Fin 2) * 640 + 640
    have e5' : win0_2.index ⟨(i 1).val / 640, ht⟩ (1 : Fin 2) = (i 1).val / 640 := e5
    omega

/-- After the launch the result array is the one function of the two matrices as the launch found them. -/
theorem final (c : Dev nD) : (dats m 0 c).arrAt 2 cfg0.N = Kfun (V m c main_v25) (V m c main_v22) :=
  (dats m 0 c).arrAt_eq_of_cover 2 _ (fun t _ => flushed_eq m c t) cover

end Cert.KernelIdeal.Hand

end
-- ==== Proof.Spec.lean ====
/-
  The mathematics both programs compute, stated once with no program in sight.

  From an image batch the host builds the patch array X[n, d, p] (n one of 16 images, d one of the
  576 = 64·3·3 patch entries, p one of the 196 = 14·14 output positions) and the weight matrix
  W[f, d] (f one of 64 filters).  The result at (n, f, h, w) is the negated L1 distance between
  filter f and the patch at position p = 14·h + w of image n:
      out[n, f, h, w] = -( Σ_d |W[f, d] - X[n, d, 14·h + w]| ),
  a sum of extended reals; |a| is the larger of a and -a.  Addition of extended reals is commutative
  and associative, so the sum may be taken in any grouping: that is the only law needed below.
-/
import Idealize.ShloMosaic.PureOps.Ideal
import Idealize.ShloMosaic.Lib.ValueIdx

noncomputable section

open scoped BigOperators

namespace Cert.L1Spec

open Idealize.ShloMosaic Idealize.ShloMosaic.ValueIdx

/-- The patch array's shape: image, patch entry, output position. -/
abbrev SX : Shape := ⟨3, ![16, 576, 196]⟩
/-- The weight matrix's shape: filter, patch entry. -/
abbrev SW : Shape := ⟨2, ![64, 576]⟩
/-- The result's shape: image, filter, row, column. -/
abbrev SO : Shape := ⟨4, ![16, 64, 14, 14]⟩

/-- Row h, column w of the 14×14 output is position 14·h + w of the 196. -/
def pos (h w : Fin 14) : Fin 196 := ⟨14 * h.val + w.val, by omega⟩

/-- One term of the distance: |W[f, d] - X[n, d, p]| on the extended reals. -/
def term (X : FVec Ideal SX .f32) (W : FVec Ideal SW .f32) (n : Fin 16) (f : Fin 64) (p : Fin 196) (d : Fin 576) : EReal :=
  FloatOps.absf (F := Ideal) (φ := .f32) (W (ix2 f d) - X (ix3 n d p))

/-- The negated L1 distance at image n, filter f, row h, column w. -/
def Gat (X : FVec Ideal SX .f32) (W : FVec Ideal SW .f32) (n : Fin 16) (f : Fin 64) (h w : Fin 14) : EReal :=
  -(∑ d : Fin 576, term X W n f (pos h w) d)

/-- The whole result as one function of the patch array and the weight matrix. -/
def G (X : FVec Ideal SX .f32) (W : FVec Ideal SW .f32) : FVec Ideal SO .f32 :=
  fun i => Gat X W (i 0) (i 1) (i 2) (i 3)

theorem G_ix4 (X : FVec Ideal SX .f32) (W : FVec Ideal SW .f32) (n : Fin 16) (f : Fin 64) (h w : Fin 14) :
    G X W (ix4 n f h w) = Gat X W n f h w := rfl

end Cert.L1Spec

end
-- ==== Proof.RefSide.lean ====
import proofs.«163649_j24756191494450_2_alg».proof.Defs
import proofs.«163649_j24756191494450_2_alg».proof.Proof.Gen.ReferenceIdeal.Run
import proofs.«163649_j24756191494450_2_alg».proof.Proof.Gen.ReferenceIdeal.Read
import proofs.«163649_j24756191494450_2_alg».proof.Proof.Spec

/-
  The reference program's result is the specification.

  The reference first lays the image batch out as the patch array X[n, d, p] (pad, nine shifted
  slices, a concatenation and a reshape: the function Xcol below, kept closed) and the weights as the
  matrix W[f, d] (a reshape: Wcol).  Everything after that is pointwise or a sum over d:
  W and X are both broadcast to [16, 64, 576, 196], subtracted, the absolute value is taken, the
  result is summed over the axis d starting from 0, negated, and the 196 positions are reshaped to
  14 × 14.  Read at (n, f, h, w) this is -(0 + Σ_d |W[f, d] - X[n, d, 14·h + w]|), which is the
  specification's value there.
-/

noncomputable section

open scoped BigOperators

namespace Cert.L1Ref

open Cert.ReferenceIdeal Cert.ReferenceIdeal.Gen Idealize.ShloMosaic Idealize.ShloMosaic.TcCoe Idealize.SL.Sem
open Idealize.ShloMosaic.StableHlo Idealize.ShloMosaic.ValueIdx Cert.L1Spec

/-- The patch array the reference builds from the image batch: the batch padded by one on each
    side of its two spatial axes, the nine 14×14 windows at offsets (a, b), a, b ∈ {0, 1, 2}, joined
    on a new axis of size 9 and the axes (channel, offset) and (row, column) each merged.
    It is never opened below: both programs are compared as functions of it. -/
def Xcol (x : FVec Ideal S16x64x14x14 .f32) : FVec Ideal SX .f32 :=
  shapeCast _ (concatenate S16x64x9x14x14 2 [⟨S16x64x1x14x14, (broadcastInDim S16x64x1x14x14 ![0, 1, 3, 4] bcast_S16x64x14x14_S16x64x1x14x14_0_1_3_4 (extractStridedSlice S16x64x14x14 ![0, 0, 0, 0] (pad S16x64x16x16 ![0, 0, 1, 1] ![0, 0, 1, 1] ![0, 0, 0, 0] x (sitofp .f32 (constantI S_ 32 0#32)) pads_S16x64x14x14_S16x64x16x16_000_000_110_110 h_S_) slices_S16x64x16x16_S16x64x14x14_0_0_0_0))⟩, ⟨S16x64x1x14x14, (broadcastInDim S16x64x1x14x14 ![0, 1, 3, 4] bcast_S16x64x14x14_S16x64x1x14x14_0_1_3_4 (extractStridedSlice S16x64x14x14 ![0, 0, 0, 1] (pad S16x64x16x16 ![0, 0, 1, 1] ![0, 0, 1, 1] ![0, 0, 0, 0] x (sitofp .f32 (constantI S_ 32 0#32)) pads_S16x64x14x14_S16x64x16x16_000_000_110_110 h_S_) slices_S16x64x16x16_S16x64x14x14_0_0_0_1))⟩, ⟨S16x64x1x14x14, (broadcastInDim S16x64x1x14x14 ![0, 1, 3, 4] bcast_S16x64x14x14_S16x64x1x14x14_0_1_3_4 (extractStridedSlice S16x64x14x14 ![0, 0, 0, 2] (pad S16x64x16x16 ![0, 0, 1, 1] ![0, 0, 1, 1] ![0, 0, 0, 0] x (sitofp .f32 (constantI S_ 32 0#32)) pads_S16x64x14x14_S16x64x16x16_000_000_110_110 h_S_) slices_S16x64x16x16_S16x64x14x14_0_0_0_2))⟩, ⟨S16x64x1x14x14, (broadcastInDim S16x64x1x14x14 ![0, 1, 3, 4] bcast_S16x64x14x14_S16x64x1x14x14_0_1_3_4 (extractStridedSlice S16x64x14x14 ![0, 0, 1, 0] (pad S16x64x16x16 ![0, 0, 1, 1] ![0, 0, 1, 1] ![0, 0, 0, 0] x (sitofp .f32 (constantI S_ 32 0#32)) pads_S16x64x14x14_S16x64x16x16_000_000_110_110 h_S_) slices_S16x64x16x16_S16x64x14x14_0_0_1_0))⟩, ⟨S16x64x1x14x14, (broadcastInDim S16x64x1x14x14 ![0, 1, 3, 4] bcast_S16x64x14x14_S16x64x1x14x14_0_1_3_4 (extractStridedSlice S16x64x14x14 ![0, 0, 1, 1] (pad S16x64x16x16 ![0, 0, 1, 1] ![0, 0, 1, 1] ![0, 0, 0, 0] x (sitofp .f32 (constantI S_ 32 0#32)) pads_S16x64x14x14_S16x64x16x16_000_000_110_110 h_S_) slices_S16x64x16x16_S16x64x14x14_0_0_1_1))⟩, ⟨S16x64x1x14x14, (broadcastInDim S16x64x1x14x14 ![0, 1, 3, 4] bcast_S16x64x14x14_S16x64x1x14x14_0_1_3_4 (extractStridedSlice S16x64x14x14 ![0, 0, 1, 2] (pad S16x64x16x16 ![0, 0, 1, 1] ![0, 0, 1, 1] ![0, 0, 0, 0] x (sitofp .f32 (constantI S_ 32 0#32)) pads_S16x64x14x14_S16x64x16x16_000_000_110_110 h_S_) slices_S16x64x16x16_S16x64x14x14_0_0_1_2))⟩, ⟨S16x64x1x14x14, (broadcastInDim S16x64x1x14x14 ![0, 1, 3, 4] bcast_S16x64x14x14_S16x64x1x14x14_0_1_3_4 (extractStridedSlice S16x64x14x14 ![0, 0, 2, 0] (pad S16x64x16x16 ![0, 0, 1, 1] ![0, 0, 1, 1] ![0, 0, 0, 0] x (sitofp .f32 (constantI S_ 32 0#32)) pads_S16x64x14x14_S16x64x16x16_000_000_110_110 h_S_) slices_S16x64x16x16_S16x64x14x14_0_0_2_0))⟩, ⟨S16x64x1x14x14, (broadcastInDim S16x64x1x14x14 ![0, 1, 3, 4] bcast_S16x64x14x14_S16x64x1x14x14_0_1_3_4 (extractStridedSlice S16x64x14x14 ![0, 0, 2, 1] (pad S16x64x16x16 ![0, 0, 1, 1] ![0, 0, 1, 1] ![0, 0, 0, 0] x (sitofp .f32 (constantI S_ 32 0#32)) pads_S16x64x14x14_S16x64x16x16_000_000_110_110 h_S_) slices_S16x64x16x16_S16x64x14x14_0_0_2_1))⟩, ⟨S16x64x1x14x14, (broadcastInDim S16x64x1x14x14 ![0, 1, 3, 4] bcast_S16x64x14x14_S16x64x1x14x14_0_1_3_4 (extractStridedSlice S16x64x14x14 ![0, 0, 2, 2] (pad S16x64x16x16 ![0, 0, 1, 1] ![0, 0, 1, 1] ![0, 0, 0, 0] x (sitofp .f32 (constantI S_ 32 0#32)) pads_S16x64x14x14_S16x64x16x16_000_000_110_110 h_S_) slices_S16x64x16x16_S16x64x14x14_0_0_2_2))⟩] concatenates_S16x64x1x14x14_S16x64x1x14x14_S16x64x1x14x14_S16x64x1x14x14_S16x64x1x14x14_S16x64x1x14x14_S16x64x1x14x14_S16x64x1x14x14_S16x64x1x14x14_S16x64x9x14x14_d2) shapeCasts_S16x64x9x14x14_S16x576x196

/-- The weight matrix: the 64×3×3 entries of each filter merged into one axis of 576. -/
def Wcol (w : FVec Ideal S64x64x3x3 .f32) : FVec Ideal SW .f32 :=
  shapeCast _ w shapeCasts_S64x64x3x3_S64x576

/-- The reference's operations after the patch array and the weight matrix are built, as a
    function of those two. -/
def tail (X : FVec Ideal SX .f32) (W : FVec Ideal SW .f32) : FVec Ideal SO .f32 :=
  shapeCast _ (Host.negf (Host.reduceAdd (F := Ideal) (Host.absf (subf (broadcastInDim S16x64x576x196 ![0, 1, 2, 3] bcast_S1x64x576x1_S16x64x576x196_0_1_2_3 (broadcastInDim S1x64x576x1 ![1, 2] bcast_S64x576_S1x64x576x1_1_2 W)) (broadcastInDim S16x64x576x196 ![0, 1, 2, 3] bcast_S16x1x576x196_S16x64x576x196_0_1_2_3 (broadcastInDim S16x1x576x196 ![0, 2, 3] bcast_S16x576x196_S16x1x576x196_0_2_3 X)))) (constant (F := Ideal) S_ .f32 0x00000000#32) reducesTo_S16x64x576x196_S16x64x196_d2 h_S_)) shapeCasts_S16x64x196_S16x64x14x14

/-- The broadcast weights at (n, f, d, p) are W[f, d]. -/
theorem wB_apply (W : FVec Ideal SW .f32) (n : Fin 16) (f : Fin 64) (d : Fin 576) (p : Fin 196) :
    broadcastInDim S16x64x576x196 ![0, 1, 2, 3] bcast_S1x64x576x1_S16x64x576x196_0_1_2_3
      (broadcastInDim S1x64x576x1 ![1, 2] bcast_S64x576_S1x64x576x1_1_2 W) (ix4 n f d p) = W (ix2 f d) :=
  (broadcastInDim_apply _ bcast_S1x64x576x1_S16x64x576x196_0_1_2_3 _ (ix4 n f d p) (ix4 (0 : Fin 1) f d (0 : Fin 1))
    (fun a => match a with
      | ⟨0, _⟩ => by show 0 = if (1 : Nat) = 1 then 0 else n.val; rw [if_pos rfl]
      | ⟨1, _⟩ => by show f.val = if (64 : Nat) = 1 then 0 else f.val; rw [if_neg (by decide)]
      | ⟨2, _⟩ => by show d.val = if (576 : Nat) = 1 then 0 else d.val; rw [if_neg (by decide)]
      | ⟨3, _⟩ => by show 0 = if (1 : Nat) = 1 then 0 else p.val; rw [if_pos rfl])).trans
  (broadcastInDim_apply _ bcast_S64x576_S1x64x576x1_1_2 W (ix4 (0 : Fin 1) f d (0 : Fin 1)) (ix2 f d)
    (fun a => match a with
      | ⟨0, _⟩ => by show f.val = if (64 : Nat) = 1 then 0 else f.val; rw [if_neg (by decide)]
      | ⟨1, _⟩ => by show d.val = if (576 : Nat) = 1 then 0 else d.val; rw [if_neg (by decide)]))

/-- The broadcast patch array at (n, f, d, p) is X[n, d, p]. -/
theorem xB_apply (X : FVec Ideal SX .f32) (n : Fin 16) (f : Fin 64) (d : Fin 576) (p : Fin 196) :
    broadcastInDim S16x64x576x196 ![0, 1, 2, 3] bcast_S16x1x576x196_S16x64x576x196_0_1_2_3
      (broadcastInDim S16x1x576x196 ![0, 2, 3] bcast_S16x576x196_S16x1x576x196_0_2_3 X) (ix4 n f d p) = X (ix3 n d p) :=
  (broadcastInDim_apply _ bcast_S16x1x576x196_S16x64x576x196_0_1_2_3 _ (ix4 n f d p) (ix4 n (0 : Fin 1) d p)
    (fun a => match a with
      | ⟨0, _⟩ => by show n.val = if (16 : Nat) = 1 then 0 else n.val; rw [if_neg (by decide)]
      | ⟨1, _⟩ => by show 0 = if (1 : Nat) = 1 then 0 else f.val; rw [if_pos rfl]
      | ⟨2, _⟩ => by show d.val = if (576 : Nat) = 1 then 0 else d.val; rw [if_neg (by decide)]
      | ⟨3, _⟩ => by show p.val = if (196 : Nat) = 1 then 0 else p.val; rw [if_neg (by decide)])).trans
  (broadcastInDim_apply _ bcast_S16x576x196_S16x1x576x196_0_2_3 X (ix4 n (0 : Fin 1) d p) (ix3 n d p)
    (fun a => match a with
      | ⟨0, _⟩ => by show n.val = if (16 : Nat) = 1 then 0 else n.val; rw [if_neg (by decide)]
      | ⟨1, _⟩ => by show d.val = if (576 : Nat) = 1 then 0 else d.val; rw [if_neg (by decide)]
      | ⟨2, _⟩ => by show p.val = if (196 : Nat) = 1 then 0 else p.val; rw [if_neg (by decide)]))

/-- The last reshape: row h, column w of the 14×14 output is position 14·h + w of the 196. -/
theorem reshape_apply (y : FVec Ideal S16x64x196 .f32) (n : Fin 16) (f : Fin 64) (h w : Fin 14) :
    shapeCast S16x64x14x14 y shapeCasts_S16x64x196_S16x64x14x14 (ix4 n f h w) = y (ix3 n f (pos h w)) :=
  shapeCast_apply y shapeCasts_S16x64x196_S16x64x14x14 (ix4 n f h w) (ix3 n f (pos h w))
    (by rewrite [Shape.rowMajor_val_three, Shape.rowMajor_val_four]
        show (n.val * 64 + f.val) * 196 + (14 * h.val + w.val) = ((n.val * 64 + f.val) * 14 + h.val) * 14 + w.val
        omega)

/-- The sum over the patch axis starting from the zero word: at (n, f, p) it is Σ_d of the operand at (n, f, d, p). -/
theorem sum_apply (y : FVec Ideal S16x64x576x196 .f32) (n : Fin 16) (f : Fin 64) (p : Fin 196) :
    Host.reduceAdd (F := Ideal) y (constant (F := Ideal) S_ .f32 0x00000000#32) reducesTo_S16x64x576x196_S16x64x196_d2 h_S_ (ix3 n f p)
      = ∑ d : Fin 576, y (ix4 n f d p) := by
  simp only [Host.reduceAdd, Ideal.hostReduceAdd_def]
  rw [Ideal.hostReduceAdd_single reducesTo_S16x64x576x196_S16x64x196_d2 (by decide)]
  rw [constant_apply, Ideal.ofBits_zero_f32, zero_add]
  refine Finset.sum_congr rfl fun k _ => ?_
  exact congrArg y (funext fun a => Fin.ext (by match a with | ⟨0, _⟩ => rfl | ⟨1, _⟩ => rfl | ⟨2, _⟩ => rfl | ⟨3, _⟩ => rfl))

/-- Negation on the host is pointwise negation of extended reals. -/
theorem neg_apply (y : FVec Ideal S16x64x196 .f32) (j : S16x64x196.Idx) : Host.negf y j = -(y j) := rfl

/-- The absolute value on the host is pointwise: the larger of a and -a. -/
theorem abs_apply (y : FVec Ideal S16x64x576x196 .f32) (j : S16x64x576x196.Idx) :
    Host.absf y j = FloatOps.absf (F := Ideal) (φ := .f32) (y j) := rfl

/-- The reference's operations after X and W are built compute the specification. -/
theorem tail_eq (X : FVec Ideal SX .f32) (W : FVec Ideal SW .f32) : tail X W = G X W := by
  funext i
  obtain ⟨n, f, h, w, rfl⟩ : ∃ (n : Fin 16) (f : Fin 64) (h w : Fin 14), i = ix4 n f h w :=
    ⟨i 0, i 1, i 2, i 3, eq_ix4 i⟩
  rw [G_ix4]
  unfold tail Gat
  refine (reshape_apply _ n f h w).trans ?_
  rw [neg_apply, sum_apply]
  refine congrArg Neg.neg (Finset.sum_congr rfl fun d _ => ?_)
  rw [abs_apply, subf_apply, wB_apply, xB_apply]
  rfl

/-- The reference's result, on every device, is the specification of the patch array and the
    weight matrix it builds from its two arguments. -/
theorem res_eq (m : (ℓ : Loc nD τ sig) → Buf (Elt Ideal) ℓ) (c : Dev nD) :
    Cert.ReferenceIdeal.Value.res_out0 (F := Ideal) m c
      = G (Xcol (m ((c.tc : Thread nD τ).loc main_arg0))) (Wcol (m ((c.tc : Thread nD τ).loc main_arg1))) := by
  refine Eq.trans ?_ (tail_eq _ _)
  show Cert.ReferenceIdeal.Value.res_main_v30 (F := Ideal) m c = _
  unfold Cert.ReferenceIdeal.Value.res_main_v30 tail Xcol Wcol
  rfl

/-- The reference runs and leaves its arguments unchanged: its run with the result dropped. -/
theorem frame_ri [hPre_finite_inputs : Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

end Cert.L1Ref

end
-- ==== Proof.KHost.lean ====
/-
  What the host lines of the kernel's program compute, before and after its one kernel launch.

  Before the launch the host builds the patch array and the weight matrix by the very operations
  the reference uses (pad, nine shifted slices, a concatenation and a reshape; a reshape), then
  re-lays them for the kernel: the weight matrix is transposed to 576×64; the patch array
  X[n, d, p] is transposed to [d, n, p], its last two axes are merged into 16·196 = 3136 columns,
  and 64 columns of zeros are appended, giving 576×3200.  After the launch the host cuts the 64
  appended columns off the kernel's 64×3200 result, splits the 3136 columns back into (n, p),
  exchanges the filter and image axes and splits p into 14×14.
-/
import proofs.«163649_j24756191494450_2_alg».proof.Proof.KFrameIdeal
import proofs.«163649_j24756191494450_2_alg».proof.Proof.RefSide
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The launch finds the weight matrix transposed: 576 patch entries by 64 filters. -/
theorem V_v22 (c : Dev nD) :
    V (F := Ideal) m c main_v22
      = transpose S576x64 [1, 0] (Cert.L1Ref.Wcol (m ((c : Thread nD τ).loc main_arg1))) transposes_S64x576_S576x64_1_0 := by
  dsimp only [V, V0]
  simp only [hostOps0, hostOps0_1, hostOps0_2, hostOps0_3, List.flatten_cons, List.flatten_nil, List.append_nil,
    List.cons_append, List.nil_append]
  after_results
  rfl

/-- The launch finds the patch array re-laid as a 576×3200 matrix: entry (d, 196·n + p) is X[n, d, p], and the last
    64 columns are zero. -/
theorem V_v25 (c : Dev nD) :
    V (F := Ideal) m c main_v25
      = pad S576x3200 ![0, 0] ![0, 64] ![0, 0]
          (shapeCast S576x3136
            (transpose S576x16x196 [1, 0, 2] (Cert.L1Ref.Xcol (m ((c : Thread nD τ).loc main_arg0)))
              transposes_S16x576x196_S576x16x196_1_0_2)
            shapeCasts_S576x16x196_S576x3136)
          (sitofp .f32 (constantI S_ 32 0#32)) pads_S576x3136_S576x3200_000_0640 h_S_ := by
  dsimp only [V, V0]
  simp only [hostOps0, hostOps0_1, hostOps0_2, hostOps0_3, List.flatten_cons, List.flatten_nil, List.append_nil,
    List.cons_append, List.nil_append]
  after_results
  rfl

/-- After the launch the host cuts the 64 appended columns off the kernel's 64×3200 result, splits the remaining 3136
    columns into (image, position), exchanges the filter and image axes and splits the position into row and column. -/
theorem tail_v30 (c : Dev nD) :
    Pipeline.afterTail₀ cfgs (dats (F := Ideal) m) 0 (V0 m) [hostOps1] c main_v30
      = shapeCast S16x64x14x14
          (transpose S16x64x196 [1, 0, 2]
            (shapeCast S64x16x196
              (extractStridedSlice S64x3136 ![0, 0] ((dats (F := Ideal) m 0 c).arrAt 2 cfg0.N) slices_S64x3200_S64x3136_0_0)
              shapeCasts_S64x3136_S64x16x196)
            transposes_S64x16x196_S16x64x196_1_0_2)
          shapeCasts_S16x64x196_S16x64x14x14 := by
  unfold Pipeline.afterTail₀
  show StableHlo.after hostOps1 _ (Proc.devRef .tc main_v30) = _
  after_results
  rw [Pipeline.withArrays_arr spec0 launch0.win.arr_inj c _ _ 2]
  rfl

end Cert.KernelIdeal.Hand

end
-- ==== Proof.Layout.lean ====
/-
  Three layout facts about the host-side reshapes that surround the kernel launch: each reads a chain of
  transposes, reshapes, a pad and a slice at ONE index and names the single operand entry it is.
  Pure: no program, no heap; valid at every float instance.
-/
import Idealize.ShloMosaic.Lib.ValueIdx
import Idealize.ShloMosaic.Lib.Pipeline.Value
import Idealize.ShloMosaic.Lib.ValueLayout
import Idealize.ShloMosaic.Lib.KernelVsHost
import Idealize.ShloMosaic.PureOps

namespace Cert.L1Layout

open Idealize.ShloMosaic Idealize.ShloMosaic.ValueIdx

variable {F : FTy → Type} [FloatOps F]

/-! ## The shapes, spelt with the same literals as the program's -/

abbrev S_ : Shape := ⟨0, ![]⟩
abbrev S64x576 : Shape := ⟨2, ![64, 576]⟩
abbrev S576x64 : Shape := ⟨2, ![576, 64]⟩
abbrev S16x576x196 : Shape := ⟨3, ![16, 576, 196]⟩
abbrev S576x16x196 : Shape := ⟨3, ![576, 16, 196]⟩
abbrev S576x3136 : Shape := ⟨2, ![576, 3136]⟩
abbrev S576x3200 : Shape := ⟨2, ![576, 3200]⟩
abbrev S64x3200 : Shape := ⟨2, ![64, 3200]⟩
abbrev S64x3136 : Shape := ⟨2, ![64, 3136]⟩
abbrev S64x16x196 : Shape := ⟨3, ![64, 16, 196]⟩
abbrev S16x64x196 : Shape := ⟨3, ![16, 64, 196]⟩
abbrev S16x64x14x14 : Shape := ⟨4, ![16, 64, 14, 14]⟩

/-! ## The weight matrix transposed

Entry (d, f) of the transposed [576, 64] matrix is entry (f, d) of the [64, 576] one. -/

theorem wt_apply (W : FVec F S64x576 .f32) (h : S64x576.Transposes [1, 0] S576x64) (d : Fin 576) (f : Fin 64) :
    transpose S576x64 [1, 0] W h (ix2 d f) = W (ix2 f d) :=
  transpose_ix2_apply W h d f

/-! ## The kernel's result matrix cut to 3136 columns and unfolded to [16, 64, 14, 14]

Column c of the [64, 3136] matrix is image c / 196, position c % 196, and position p of an image is row p / 14,
column p % 14. So entry (n, f, h, w) of the result is entry (f, 196 n + 14 h + w) of that matrix: the slice keeps the
column, the first reshape splits it as (n, 14 h + w), the transpose swaps n and f, the second reshape splits 14 h + w. -/

theorem tail_apply (K : FVec F S64x3200 .f32) (h1 : S64x3200.Slices ![0, 0] S64x3136)
    (h2 : S64x3136.ShapeCasts S64x16x196) (h3 : S64x16x196.Transposes [1, 0, 2] S16x64x196)
    (h4 : S16x64x196.ShapeCasts S16x64x14x14) (n : Fin 16) (f : Fin 64) (h w : Fin 14) :
    shapeCast S16x64x14x14
        (transpose S16x64x196 [1, 0, 2]
          (shapeCast S64x16x196 (extractStridedSlice S64x3136 ![0, 0] K h1) h2) h3) h4 (ix4 n f h w)
      = K (ix2 f ⟨196 * n.val + 14 * h.val + w.val, by omega⟩) := by
  have hn : n.val < 16 := n.isLt
  have hf : f.val < 64 := f.isLt
  have hh : h.val < 14 := h.isLt
  have hw : w.val < 14 := w.isLt
  -- the last reshape: (n, f, h, w) of [16, 64, 14, 14] is (n, f, 14 h + w) of [16, 64, 196]
  refine (shapeCast_apply _ h4 (ix4 n f h w) (ix3 n f (⟨14 * h.val + w.val, by omega⟩ : Fin 196)) (by
    rw [Shape.rowMajor_val_three, Shape.rowMajor_val_four]
    show (n.val * 64 + f.val) * 196 + (14 * h.val + w.val) = ((n.val * 64 + f.val) * 14 + h.val) * 14 + w.val
    omega)).trans ?_
  -- the transpose swaps the two leading axes
  refine (transpose_apply _ _ h3 (ix3 n f (⟨14 * h.val + w.val, by omega⟩ : Fin 196))
    (ix3 f n (⟨14 * h.val + w.val, by omega⟩ : Fin 196))
    (fun b => match b with | ⟨0, _⟩ => rfl | ⟨1, _⟩ => rfl | ⟨2, _⟩ => rfl)).trans ?_
  -- the first reshape: (f, n, p) of [64, 16, 196] is (f, 196 n + p) of [64, 3136]
  refine (shapeCast_apply _ h2 (ix3 f n (⟨14 * h.val + w.val, by omega⟩ : Fin 196))
    (ix2 f (⟨196 * n.val + 14 * h.val + w.val, by omega⟩ : Fin 3136)) (by
    rw [Shape.rowMajor_val_two, Shape.rowMajor_val_three]
    show f.val * 3136 + (196 * n.val + 14 * h.val + w.val) = (f.val * 16 + n.val) * 196 + (14 * h.val + w.val)
    omega)).trans ?_
  -- the slice at offsets (0, 0) keeps both coordinates
  exact extractStridedSlice_apply _ K h1 (ix2 f (⟨196 * n.val + 14 * h.val + w.val, by omega⟩ : Fin 3136))
    (ix2 f (⟨196 * n.val + 14 * h.val + w.val, by omega⟩ : Fin 3200)) (fun a => match a with
      | ⟨0, _⟩ => by show f.val = 0 + f.val; omega
      | ⟨1, _⟩ => by show 196 * n.val + 14 * h.val + w.val = 0 + (196 * n.val + 14 * h.val + w.val); omega)

/-! ## The patch array folded to a matrix and padded with 64 columns

The [16, 576, 196] patch array is transposed to [576, 16, 196] and its two trailing axes folded into one of length
3136 = 16 · 196: column j of row d is image j / 196, position j % 196. The pad adds nothing in front and 64 columns
behind, so columns below 3136 read the folded matrix and columns 3136 … 3199 read the padding value. -/

theorem xt_apply (X : FVec F S16x576x196 .f32) (z : FVec F S_ .f32)
    (h1 : S16x576x196.Transposes [1, 0, 2] S576x16x196) (h2 : S576x16x196.ShapeCasts S576x3136)
    (h3 : S576x3136.Pads (![0, 0] : Fin 2 → Nat) ![0, 64] ![0, 0] S576x3200) (h4 : 0 < S_.numel)
    (d : Fin 576) (j : Fin 3200) :
    pad S576x3200 ![0, 0] ![0, 64] ![0, 0] (shapeCast S576x3136 (transpose S576x16x196 [1, 0, 2] X h1) h2) z h3 h4
        (ix2 d j)
      = if hj : j.val < 3136 then X (ix3 ⟨j.val / 196, by omega⟩ d ⟨j.val % 196, Nat.mod_lt _ (by decide)⟩)
        else z ix0 := by
  have hd : d.val < 576 := d.isLt
  by_cases hj : j.val < 3136
  · rw [dif_pos hj]
    -- inside the operand on both axes: no low padding, no interior padding
    refine (pad_apply_of_inside _ _ _ _ z h3 h4 (ix2 d j) (ix2 d (⟨j.val, hj⟩ : Fin 3136)) (fun a => match a with
      | ⟨0, _⟩ => by show d.val = 0 + d.val * (0 + 1); omega
      | ⟨1, _⟩ => by show j.val = 0 + j.val * (0 + 1); omega)).trans ?_
    -- the fold: (d, j) of [576, 3136] is (d, j / 196, j % 196) of [576, 16, 196]
    refine (shapeCast_apply _ h2 (ix2 d (⟨j.val, hj⟩ : Fin 3136))
      (ix3 d (⟨j.val / 196, by omega⟩ : Fin 16) (⟨j.val % 196, Nat.mod_lt _ (by decide)⟩ : Fin 196)) (by
      rw [Shape.rowMajor_val_three, Shape.rowMajor_val_two]
      show (d.val * 16 + j.val / 196) * 196 + j.val % 196 = d.val * 3136 + j.val
      omega)).trans ?_
    -- the transpose swaps the two leading axes
    exact transpose_apply _ X h1 (ix3 d (⟨j.val / 196, by omega⟩ : Fin 16) (⟨j.val % 196, Nat.mod_lt _ (by decide)⟩ : Fin 196))
      (ix3 (⟨j.val / 196, by omega⟩ : Fin 16) d (⟨j.val % 196, Nat.mod_lt _ (by decide)⟩ : Fin 196))
      (fun b => match b with | ⟨0, _⟩ => rfl | ⟨1, _⟩ => rfl | ⟨2, _⟩ => rfl)
  · rw [dif_neg hj]
    -- past the operand's last column: the padding value, the scalar operand's one entry
    refine (pad_apply_of_not_inside _ _ _ _ z h3 h4 (ix2 d j) (1 : Fin 2) (by
      show ¬(0 ≤ j.val ∧ (j.val - 0) % (0 + 1) = 0 ∧ (j.val - 0) / (0 + 1) < 3136)
      omega)).trans ?_
    exact congrArg z (eq_ix0 _)

end Cert.L1Layout
-- ==== Proof.KBridge.lean ====
/-
  The kernel program's result is the specification.

  The result array the host lines after the launch produce is the kernel's 64×3200 matrix cut to its first
  3136 columns and unfolded: entry (n, f, h, w) is the matrix at row f, column 196·n + 14·h + w.  The kernel's
  matrix at (f, j) is minus the sum over d of |Wt[d, f] - Xt[d, j]|, where Wt is the transposed weight matrix,
  Wt[d, f] = W[f, d], and Xt is the patch array folded to a matrix, Xt[d, j] = X[j / 196, d, j % 196] for
  j < 3136 (the 64 padding columns are never read back).  With j = 196·n + 14·h + w: j / 196 = n and
  j % 196 = 14·h + w, so the entry is minus the sum over d of |W[f, d] - X[n, d, 14·h + w]|.
-/
import proofs.«163649_j24756191494450_2_alg».proof.Proof.KFinal
import proofs.«163649_j24756191494450_2_alg».proof.Proof.KHost
import proofs.«163649_j24756191494450_2_alg».proof.Proof.Layout
import proofs.«163649_j24756191494450_2_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Cert.L1Spec

/-- The kernel's matrix of the folded patch array and the transposed weight matrix, cut and unfolded, is the
    specification of the patch array and the weight matrix. -/
theorem unfolded_eq (X : FVec Ideal SX .f32) (W : FVec Ideal SW .f32) (z : FVec Ideal S_ .f32) :
    shapeCast S16x64x14x14 (transpose S16x64x196 [1, 0, 2] (shapeCast S64x16x196 (extractStridedSlice S64x3136 ![0, 0]
        (Kfun (pad S576x3200 ![0, 0] ![0, 64] ![0, 0] (shapeCast S576x3136 (transpose S576x16x196 [1, 0, 2] X transposes_S16x576x196_S576x16x196_1_0_2) shapeCasts_S576x16x196_S576x3136) z pads_S576x3136_S576x3200_000_0640 h_S_)
          (transpose S576x64 [1, 0] W transposes_S64x576_S576x64_1_0))
        slices_S64x3200_S64x3136_0_0) shapeCasts_S64x3136_S64x16x196) transposes_S64x16x196_S16x64x196_1_0_2) shapeCasts_S16x64x196_S16x64x14x14
      = G X W := by
  funext i
  obtain ⟨n, f, h, w, rfl⟩ : ∃ (n : Fin 16) (f : Fin 64) (h w : Fin 14), i = ix4 n f h w := ⟨i 0, i 1, i 2, i 3, eq_ix4 i⟩
  rw [G_ix4]
  refine (Cert.L1Layout.tail_apply (F := Ideal) _ _ _ _ _ n f h w).trans ?_
  show KAt _ _ f ⟨196 * n.val + 14 * h.val + w.val, _⟩ = Gat X W n f h w
  unfold KAt Gat
  refine congrArg _ (Finset.sum_congr rfl fun d _ => ?_)
  unfold term
  have hj : 196 * n.val + 14 * h.val + w.val < 3136 := by have := n.isLt; have := h.isLt; have := w.isLt; omega
  have hW := Cert.L1Layout.wt_apply (F := Ideal) W transposes_S64x576_S576x64_1_0 d f
  have hX := Cert.L1Layout.xt_apply (F := Ideal) X z transposes_S16x576x196_S576x16x196_1_0_2 shapeCasts_S576x16x196_S576x3136 pads_S576x3136_S576x3200_000_0640 h_S_ d ⟨196 * n.val + 14 * h.val + w.val, by omega⟩
  rw [dif_pos hj] at hX
  refine congrArg _ ?_
  refine congrArg₂ (· - ·) hW (hX.trans (congrArg X ?_))
  funext a
  match a with
  | ⟨0, _⟩ => exact Fin.ext (by show (196 * n.val + 14 * h.val + w.val) / 196 = n.val; have := h.isLt; have := w.isLt; omega)
  | ⟨1, _⟩ => rfl
  | ⟨2, _⟩ => exact Fin.ext (by show (196 * n.val + 14 * h.val + w.val) % 196 = 14 * h.val + w.val; have := h.isLt; have := w.isLt; omega)

variable (m : (ℓ : Loc nD τ sig) → Buf (Elt Ideal) ℓ) (ρ : Dev nD → PrngReg)

/-- Every weakly fair execution of the kernel program terminates with the result array at the specification of the
    patch array and weight matrix built from the arguments, and the arguments unchanged. -/
theorem kernel_run : θ_run defs (onTc (τ := τ) (main (F := Ideal))) ⟨m, fun _ => 0, ρ⟩ (fun r => ∀ c : Dev nD,
      r.2.mem ((c.tc : Thread nD τ).loc main_v30) = G (Cert.L1Ref.Xcol (m ((c.tc : Thread nD τ).loc main_arg0))) (Cert.L1Ref.Wcol (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨by
      rw [(h c).2 main_v30 (Pipeline.mem_restRefs_of main_v30 (by decide) (by decide)), tail_v30, final, V_v25, V_v22]
      exact unfolded_eq _ _ _,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩) (run_main m ρ)

end Cert.KernelIdeal.Hand

end
-- ==== Proof.lean ====
/-
  The certificate: an L1-distance ("adder") convolution as a tiled kernel against its plain reference.

  Both programs cut the image batch into 3×3 patches, giving the array X[n, d, p] (16 images, 576 patch
  entries, 196 positions), and flatten the filter bank to W[f, d] (64 filters).  The reference computes
  out[n, f, h, w] = -( Σ_d |W[f, d] - X[n, d, 14·h + w]| ) in one reduction.  The kernel program folds X to a
  576×3136 matrix (column 196·n + p), pads it to 3200 columns, transposes W, and on each of five column
  blocks of 640 accumulates, in eighteen steps of 32 rows, the column sums of |Wt[d, f] - Xt[d, j]|; it
  negates, and the host cuts the padding off and unfolds the columns back to (n, h, w).

  On the extended reals the two results are the same function of X and W, index by index: the eighteen partial
  sums over 32 rows are the sum over all 576 rows (addition is commutative and associative, infinities
  included), zero minus a sum is its negative, and column 196·n + 14·h + w of the folded matrix is position
  14·h + w of image n.  No finiteness of the inputs is used.  The idealized kernel is the kernel's own text read
  on the extended reals (nothing was rewritten), so the fourth claim is trivial.  Each program terminates
  without fault and leaves its two arguments unchanged: the kernel programs by running the launch point by
  point with the body's loop taken through its invariant, the reference by running its host operations in order.
-/
import proofs.«163649_j24756191494450_2_alg».proof.Defs
import proofs.«163649_j24756191494450_2_alg».proof.Proof.Gen.Kernel
import proofs.«163649_j24756191494450_2_alg».proof.Proof.Gen.KernelIdeal
import proofs.«163649_j24756191494450_2_alg».proof.Proof.Gen.ReferenceIdeal
import proofs.«163649_j24756191494450_2_alg».proof.Proof.Gen.Pre_finite_inputs
import proofs.«163649_j24756191494450_2_alg».proof.Proof.KFrame
import proofs.«163649_j24756191494450_2_alg».proof.Proof.KBridge
import proofs.«163649_j24756191494450_2_alg».proof.Proof.RefSide
import Idealize.ShloMosaic.Adequacy
import Idealize.ShloMosaic.Init

noncomputable section

namespace Cert.Proof

open Idealize.ShloMosaic Idealize.SL.Sem

/-- The kernel program, on machine words, terminates and keeps its arguments. -/
theorem frame_k : Cert.frame_Kernel := fun m ρ _ => Cert.Kernel.Hand.frame m ρ
/-- So does the same program read on the extended reals. -/
theorem frame_ki : Cert.frame_KernelIdeal := fun m ρ _ => Cert.KernelIdeal.Hand.frame m ρ

/-- From memories that agree on the two arguments, both programs end with the result array at the one specification
    of the patch array and weight matrix built from those arguments. -/
theorem algebraic : Cert.algebraic_KernelIdeal_ReferenceIdeal := by
  intro m ρ m' ρ' _ hagree
  refine ⟨fun c => Cert.L1Spec.G (Cert.L1Ref.Xcol (m ((c.tc : Thread Cert.KernelIdeal.nD Cert.KernelIdeal.τ).loc Cert.KernelIdeal.main_arg0)))
      (Cert.L1Ref.Wcol (m ((c.tc : Thread Cert.KernelIdeal.nD Cert.KernelIdeal.τ).loc Cert.KernelIdeal.main_arg1))),
    Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [show Cert.ReferenceIdeal.Value.res_main_v30 m' c = Cert.ReferenceIdeal.Value.res_out0 m' c from rfl, Cert.L1Ref.res_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, Cert.L1Ref.frame_ri, trivial, algebraic⟩

end Cert.Proof

end
